-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S65x64 : Shape := ⟨2, ![65, 64]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S65x64 : S_.BroadcastsInDim S65x64 (![] : Fin 0 → Fin S65x64.rank)
  reducesTo_S65x64_S_d0_1 : S65x64.ReducesTo [0, 1] S_

variable [Facts]

def fn {F : FTy → Type} [FloatOps F] (main_arg0 : FVec F S2097152x4 .f32) (main_arg1 : FVec F S65x64 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S65x64 .f32 := Host.absf main_arg1
  let main_cst_0 : FVec F S_ .f32 := constant S_ .f32 0x7F800000#32
  let main_v5 : FVec F S65x64 .f32 := broadcastInDim S65x64 ![] bcast_S_S65x64 main_cst_0
  let main_v6 : IVec S65x64 1 := cmpf .olt main_v4 main_v5
  let main_c_1 : IVec S_ 1 := constantI S_ 1 1#1
  let main_v7 : IVec S_ 1 := (fun x v => Host.reduce IntOp.andi x v reducesTo_S65x64_S_d0_1 h_S_) main_v6 main_c_1
  let main_v8 : IVec S_ 1 := andi main_v3 main_v7
  main_v8
-- ==== Kernel.lean ====
abbrev S2097152x4 : Shape := ⟨2, ![2097152, 4]⟩
abbrev S65x64 : Shape := ⟨2, ![65, 64]⟩
abbrev S64x4 : Shape := ⟨2, ![64, 4]⟩
abbrev S64x1 : Shape := ⟨2, ![64, 1]⟩
abbrev S64 : Shape := ⟨1, ![64]⟩
abbrev S1x1 : Shape := ⟨2, ![1, 1]⟩
abbrev S_ : Shape := ⟨0, ![]⟩
abbrev S1x64 : Shape := ⟨2, ![1, 64]⟩
abbrev S1x4 : Shape := ⟨2, ![1, 4]⟩
abbrev S65x4 : Shape := ⟨2, ![65, 4]⟩
abbrev S1 : Shape := ⟨1, ![1]⟩
abbrev S65 : Shape := ⟨1, ![65]⟩
abbrev S32x32 : Shape := ⟨2, ![32, 32]⟩
abbrev S65x1x1x4 : Shape := ⟨4, ![65, 1, 1, 4]⟩
abbrev S1x32x32x1 : Shape := ⟨4, ![1, 32, 32, 1]⟩
abbrev S65x32x32x4 : Shape := ⟨4, ![65, 32, 32, 4]⟩
abbrev S2080x128 : Shape := ⟨2, ![2080, 128]⟩
abbrev S65x1 : Shape := ⟨2, ![65, 1]⟩
abbrev S65x32 : Shape := ⟨2, ![65, 32]⟩
abbrev S2080 : Shape := ⟨1, ![2080]⟩
abbrev S2080x1 : Shape := ⟨2, ![2080, 1]⟩
abbrev S2080x2 : Shape := ⟨2, ![2080, 2]⟩
abbrev S65536x128 : Shape := ⟨2, ![65536, 128]⟩
abbrev S32x65536 : Shape := ⟨2, ![32, 65536]⟩
abbrev S2048x128 : Shape := ⟨2, ![2048, 128]⟩
abbrev S32x2048 : Shape := ⟨2, ![32, 2048]⟩
abbrev S2080x2048 : Shape := ⟨2, ![2080, 2048]⟩
abbrev S65x32x2048 : Shape := ⟨3, ![65, 32, 2048]⟩
abbrev S65536x32 : Shape := ⟨2, ![65536, 32]⟩
abbrev S2097152x1 : Shape := ⟨2, ![2097152, 1]⟩

abbrev nBuf : Space → Nat
  | .hbm => 43
  | .vmem => 6
  | .smem => 0
  | _ => 0

abbrev bufTy : (tb : Table) → Fin (tcTables nBuf tb) → BufTy
  | .hbm, ⟨0, _⟩ => ⟨S2097152x4, .f32⟩
  | .hbm, ⟨1, _⟩ => ⟨S65x64, .f32⟩
  | .hbm, ⟨2, _⟩ => ⟨S64x4, .f32⟩
  | .hbm, ⟨3, _⟩ => ⟨S64x1, .f32⟩
  | .hbm, ⟨4, _⟩ => ⟨S64, .f32⟩
  | .hbm, ⟨5, _⟩ => ⟨S1x1, .f32⟩
  | .hbm, ⟨6, _⟩ => ⟨S_, .f32⟩
  | .hbm, ⟨7, _⟩ => ⟨S1x64, .f32⟩
  | .hbm, ⟨8, _⟩ => ⟨S64, .f32⟩
  | .hbm, ⟨9, _⟩ => ⟨S_, .f32⟩
  | .hbm, ⟨10, _⟩ => ⟨S1x4, .f32⟩
  | .hbm, ⟨11, _⟩ => ⟨S65x4, .f32⟩
  | .hbm, ⟨12, _⟩ => ⟨S_, .f32⟩
  | .hbm, ⟨13, _⟩ => ⟨S1, .f32⟩
  | .hbm, ⟨14, _⟩ => ⟨S65, .f32⟩
  | .hbm, ⟨15, _⟩ => ⟨S1, .f32⟩
  | .hbm, ⟨16, _⟩ => ⟨S65, .f32⟩
  | .hbm, ⟨17, _⟩ => ⟨S32x32, .i32⟩
  | .hbm, ⟨18, _⟩ => ⟨S32x32, .i32⟩
  | .hbm, ⟨19, _⟩ => ⟨S_, .i32⟩
  | .hbm, ⟨20, _⟩ => ⟨S32x32, .i32⟩
  | .hbm, ⟨21, _⟩ => ⟨S32x32, .i32⟩
  | .hbm, ⟨22, _⟩ => ⟨S32x32, .i1⟩
  | .hbm, ⟨23, _⟩ => ⟨S32x32, .f32⟩
  | .hbm, ⟨24, _⟩ => ⟨S65x1x1x4, .f32⟩
  | .hbm, ⟨25, _⟩ => ⟨S1x32x32x1, .f32⟩
  | .hbm, ⟨26, _⟩ => ⟨S65x32x32x4, .f32⟩
  | .hbm, ⟨27, _⟩ => ⟨S65x32x32x4, .f32⟩
  | .hbm, ⟨28, _⟩ => ⟨S65x32x32x4, .f32⟩
  | .hbm, ⟨29, _⟩ => ⟨S2080x128, .f32⟩
  | .hbm, ⟨30, _⟩ => ⟨S65x1, .f32⟩
  | .hbm, ⟨31, _⟩ => ⟨S65x32, .f32⟩
  | .hbm, ⟨32, _⟩ => ⟨S2080, .f32⟩
  | .hbm, ⟨33, _⟩ => ⟨S65x1, .f32⟩
  | .hbm, ⟨34, _⟩ => ⟨S65x32, .f32⟩
  | .hbm, ⟨35, _⟩ => ⟨S2080, .f32⟩
  | .hbm, ⟨36, _⟩ => ⟨S2080x1, .f32⟩
  | .hbm, ⟨37, _⟩ => ⟨S2080x1, .f32⟩
  | .hbm, ⟨38, _⟩ => ⟨S2080x2, .f32⟩
  | .hbm, ⟨39, _⟩ => ⟨S65536x128, .f32⟩
  | .hbm, ⟨40, _⟩ => ⟨S32x65536, .f32⟩
  | .hbm, ⟨41, _⟩ => ⟨S65536x32, .f32⟩
  | .hbm, ⟨42, _⟩ => ⟨S2097152x1, .f32⟩
  | .local _ .vmem, ⟨0, _⟩ => ⟨S2080x128, .f32⟩
  | .local _ .vmem, ⟨1, _⟩ => ⟨S2080x2, .f32⟩
  | .local _ .vmem, ⟨2, _⟩ => ⟨S2048x128, .f32⟩
  | .local _ .vmem, ⟨3, _⟩ => ⟨S2048x128, .f32⟩
  | .local _ .vmem, ⟨4, _⟩ => ⟨S32x2048, .f32⟩
  | .local _ .vmem, ⟨5, _⟩ => ⟨S32x2048, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2080x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2080x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S65x64_S64x4_0_0 : S65x64.Slices ![0, 0] S64x4
  slices_S65x64_S64x1_0_4 : S65x64.Slices ![0, 4] S64x1
  shapeCasts_S64x1_S64 : S64x1.ShapeCasts S64
  slices_S65x64_S1x1_0_8 : S65x64.Slices ![0, 8] S1x1
  shapeCasts_S1x1_S_ : S1x1.ShapeCasts S_
  slices_S65x64_S1x64_64_0 : S65x64.Slices ![64, 0] S1x64
  shapeCasts_S1x64_S64 : S1x64.ShapeCasts S64
  bcast_S_S1x4 : S_.BroadcastsInDim S1x4 (![] : Fin 0 → Fin S1x4.rank)
  concatenates_S64x4_S1x4_S65x4_d0 : Shape.Concatenates [S64x4, S1x4] S65x4 0
  bcast_S_S1 : S_.BroadcastsInDim S1 (![] : Fin 0 → Fin S1.rank)
  concatenates_S64_S1_S65_d0 : Shape.Concatenates [S64, S1] S65 0
  bcast_S_S32x32 : S_.BroadcastsInDim S32x32 (![] : Fin 0 → Fin S32x32.rank)
  bcast_S65x4_S65x1x1x4_0_3 : S65x4.BroadcastsInDim S65x1x1x4 (![0, 3] : Fin 2 → Fin S65x1x1x4.rank)
  bcast_S32x32_S1x32x32x1_1_2 : S32x32.BroadcastsInDim S1x32x32x1 (![1, 2] : Fin 2 → Fin S1x32x32x1.rank)
  bcast_S65x1x1x4_S65x32x32x4_0_1_2_3 : S65x1x1x4.BroadcastsInDim S65x32x32x4 (![0, 1, 2, 3] : Fin 4 → Fin S65x32x32x4.rank)
  bcast_S1x32x32x1_S65x32x32x4_0_1_2_3 : S1x32x32x1.BroadcastsInDim S65x32x32x4 (![0, 1, 2, 3] : Fin 4 → Fin S65x32x32x4.rank)
  shapeCasts_S65x32x32x4_S2080x128 : S65x32x32x4.ShapeCasts S2080x128
  bcast_S65_S65x1_0 : S65.BroadcastsInDim S65x1 (![0] : Fin 1 → Fin S65x1.rank)
  bcast_S65x1_S65x32_0_1 : S65x1.BroadcastsInDim S65x32 (![0, 1] : Fin 2 → Fin S65x32.rank)
  shapeCasts_S65x32_S2080 : S65x32.ShapeCasts S2080
  bcast_S2080_S2080x1_0 : S2080.BroadcastsInDim S2080x1 (![0] : Fin 1 → Fin S2080x1.rank)
  concatenates_S2080x1_S2080x1_S2080x2_d1 : Shape.Concatenates [S2080x1, S2080x1] S2080x2 1
  shapeCasts_S2097152x4_S65536x128 : S2097152x4.ShapeCasts S65536x128
  inb_S2080x128_S2080x128_0_0 : ∀ a, (![0, 0] : Fin 2 → Nat) a + S2080x128.size a ≤ S2080x128.size a
  h_S2080x128 : 0 < S2080x128.numel
  shapeCasts_S2080x128_S2080x128 : S2080x128.ShapeCasts S2080x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2080x2_S2080x1_0_0 : ∀ a, (![0, 0] : Fin 2 → Nat) a + S2080x1.size a ≤ S2080x2.size a
  h_S2080x1 : 0 < S2080x1.numel
  shapeCasts_S2080x1_S2080x1 : S2080x1.ShapeCasts S2080x1
  broadcasts_S2080x1_S2080x2048 : S2080x1.Broadcasts S2080x2048
  inb_S2080x2_S2080x1_0_1 : ∀ a, (![0, 1] : Fin 2 → Nat) a + S2080x1.size a ≤ S2080x2.size a
  shapeCasts_S2080x2048_S65x32x2048 : S2080x2048.ShapeCasts S65x32x2048
  reduces_S65x32x2048_S32x2048 : S65x32x2048.Reduces [0] S32x2048
  inb_S32x2048_S32x2048_0_0 : ∀ a, (![0, 0] : Fin 2 → Nat) a + S32x2048.size a ≤ S32x2048.size a
  h_S32x2048 : 0 < S32x2048.numel
  transposes_S32x65536_S65536x32_1_0 : S32x65536.Transposes [1, 0] S65536x32
  shapeCasts_S65536x32_S2097152x1 : S65536x32.ShapeCasts S2097152x1
  dot_S2080x128_S2048x128_S2080x2048_1_1_0_0_n_n_wf : DotDims.WF S2080x128 S2048x128 S2080x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2080x128.size a ≤ S2080x128.size a
  hwx0_0 : ∀ i : grid0.Coords, EltTy.bits .f32 = 32 ∨ (Rect.block (s := S2080x128) S2080x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2080x2.size a ≤ S2080x2.size a
  hwx0_1 : ∀ i : grid0.Coords, EltTy.bits .f32 = 32 ∨ (Rect.block (s := S2080x2) S2080x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S32x65536.size a
  hwx0_3 : ∀ i : grid0.Coords, EltTy.bits .f32 = 32 ∨ (Rect.block (s := S32x65536) S32x2048.size (cc0_transform_3 i) (hinb0_3 i)).WholeWords (EltTy.packing .f32)

variable [Facts₀]

def dot_S2080x128_S2048x128_S2080x2048_1_1_0_0_n_n : DotDims S2080x128 S2048x128 S2080x2048 where
  lhsContracting := [1]
  rhsContracting := [1]
  lhsNonContracting := [0]
  rhsNonContracting := [0]
  lhsBatch := []
  rhsBatch := []
  wf := dot_S2080x128_S2048x128_S2080x2048_1_1_0_0_n_n_wf

abbrev win0_0 : Pipeline.Window sig grid0 :=
  Pipeline.Window.ofSpec (Memref.whole main_v24) S2080x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2080x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S32x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S65x64 : Shape := ⟨2, ![65, 64]⟩
abbrev S_ : Shape := ⟨0, ![]⟩
abbrev S8x2097152 : Shape := ⟨2, ![8, 2097152]⟩
abbrev S4x2097152 : Shape := ⟨2, ![4, 2097152]⟩
abbrev S1 : Shape := ⟨1, ![1]⟩
abbrev S2097152 : Shape := ⟨1, ![2097152]⟩
abbrev S1x2097152 : Shape := ⟨2, ![1, 2097152]⟩
abbrev S8x4096 : Shape := ⟨2, ![8, 4096]⟩
abbrev S1x4096 : Shape := ⟨2, ![1, 4096]⟩
abbrev S64x8 : Shape := ⟨2, ![64, 8]⟩
abbrev S1x64 : Shape := ⟨2, ![1, 64]⟩
abbrev S1x1 : Shape := ⟨2, ![1, 1]⟩
abbrev S64x4096 : Shape := ⟨2, ![64, 4096]⟩
abbrev S2097152x1 : Shape := ⟨2, ![2097152, 1]⟩

abbrev nBuf : Space → Nat
  | .hbm => 16
  | .vmem => 5
  | .smem => 0
  | _ => 0

abbrev bufTy : (tb : Table) → Fin (tcTables nBuf tb) → BufTy
  | .hbm, ⟨0, _⟩ => ⟨S2097152x4, .f32⟩
  | .hbm, ⟨1, _⟩ => ⟨S65x64, .f32⟩
  | .hbm, ⟨2, _⟩ => ⟨S_, .f32⟩
  | .hbm, ⟨3, _⟩ => ⟨S8x2097152, .f32⟩
  | .hbm, ⟨4, _⟩ => ⟨S4x2097152, .f32⟩
  | .hbm, ⟨5, _⟩ => ⟨S_, .i32⟩
  | .hbm, ⟨6, _⟩ => ⟨S1, .i32⟩
  | .hbm, ⟨7, _⟩ => ⟨S8x2097152, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S2097152, .f32⟩
  | .hbm, ⟨12, _⟩ => ⟨S8x2097152, .f32⟩
  | .hbm, ⟨13, _⟩ => ⟨S1x2097152, .f32⟩
  | .hbm, ⟨14, _⟩ => ⟨S2097152, .f32⟩
  | .hbm, ⟨15, _⟩ => ⟨S2097152x1, .f32⟩
  | .local _ .vmem, ⟨0, _⟩ => ⟨S8x4096, .f32⟩
  | .local _ .vmem, ⟨1, _⟩ => ⟨S8x4096, .f32⟩
  | .local _ .vmem, ⟨2, _⟩ => ⟨S65x64, .f32⟩
  | .local _ .vmem, ⟨3, _⟩ => ⟨S1x4096, .f32⟩
  | .local _ .vmem, ⟨4, _⟩ => ⟨S1x4096, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x2097152 : S_.BroadcastsInDim S8x2097152 (![] : Fin 0 → Fin S8x2097152.rank)
  transposes_S2097152x4_S4x2097152_1_0 : S2097152x4.Transposes [1, 0] S4x2097152
  bcast_S_S1 : S_.BroadcastsInDim S1 (![] : Fin 0 → Fin S1.rank)
  bcast_S_S2097152 : S_.BroadcastsInDim S2097152 (![] : Fin 0 → Fin S2097152.rank)
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S65x64_S64x8_0_0 : ∀ a, (![0, 0] : Fin 2 → Nat) a + S64x8.size a ≤ S65x64.size a
  h_S64x8 : 0 < S64x8.numel
  inb_S65x64_S1x64_64_0 : ∀ a, (![64, 0] : Fin 2 → Nat) a + S1x64.size a ≤ S65x64.size a
  h_S1x64 : 0 < S1x64.numel
  inb_S65x64_S1x1_0_8 : ∀ a, (![0, 8] : Fin 2 → Nat) a + S1x1.size a ≤ S65x64.size a
  h_S1x1 : 0 < S1x1.numel
  broadcasts_S1x1_S1x4096 : S1x1.Broadcasts S1x4096
  inb_S1x4096_S1x4096_0_0 : ∀ a, (![0, 0] : Fin 2 → Nat) a + S1x4096.size a ≤ S1x4096.size a
  h_S1x4096 : 0 < S1x4096.numel
  shapeCasts_S1x2097152_S2097152 : S1x2097152.ShapeCasts S2097152
  shapeCasts_S2097152_S2097152x1 : S2097152.ShapeCasts S2097152x1
  scatter_S8x2097152_S1_S4x2097152_01_n_0_0_wf : ScatterDims.WF S8x2097152 S1 S4x2097152 [0, 1] [] [0] 0
  scatter_S8x2097152_S1_S2097152_0_0_0_0_wf : ScatterDims.WF S8x2097152 S1 S2097152 [0] [0] [0] 0
  dot_S64x8_S8x4096_S64x4096_1_0_0_1_n_n_wf : DotDims.WF S64x8 S8x4096 S64x4096 [1] [0] [0] [1] [] []
  dot_S1x64_S64x4096_S1x4096_1_0_0_1_n_n_wf : DotDims.WF S1x64 S64x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x2097152.size a
  hwx0_0 : ∀ i : grid0.Coords, EltTy.bits .f32 = 32 ∨ (Rect.block (s := S8x2097152) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x64.size a ≤ S65x64.size a
  hwx0_1 : ∀ i : grid0.Coords, EltTy.bits .f32 = 32 ∨ (Rect.block (s := S65x64) S65x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x2097152.size a
  hwx0_2 : ∀ i : grid0.Coords, EltTy.bits .f32 = 32 ∨ (Rect.block (s := S1x2097152) S1x4096.size (cc0_transform_2 i) (hinb0_2 i)).WholeWords (EltTy.packing .f32)

variable [Facts₀]

def scatter_S8x2097152_S1_S4x2097152_01_n_0_0 : ScatterDims S8x2097152 S1 S4x2097152 where
  updateWindowDims := [0, 1]
  insertedWindowDims := []
  scatterDimsToOperandDims := [0]
  indexVectorDim := 0
  wf := scatter_S8x2097152_S1_S4x2097152_01_n_0_0_wf
def scatter_S8x2097152_S1_S2097152_0_0_0_0 : ScatterDims S8x2097152 S1 S2097152 where
  updateWindowDims := [0]
  insertedWindowDims := [0]
  scatterDimsToOperandDims := [0]
  indexVectorDim := 0
  wf := scatter_S8x2097152_S1_S2097152_0_0_0_0_wf
def dot_S64x8_S8x4096_S64x4096_1_0_0_1_n_n : DotDims S64x8 S8x4096 S64x4096 where
  lhsContracting := [1]
  rhsContracting := [0]
  lhsNonContracting := [0]
  rhsNonContracting := [1]
  lhsBatch := []
  rhsBatch := []
  wf := dot_S64x8_S8x4096_S64x4096_1_0_0_1_n_n_wf
def dot_S1x64_S64x4096_S1x4096_1_0_0_1_n_n : DotDims S1x64 S64x4096 S1x4096 where
  lhsContracting := [1]
  rhsContracting := [0]
  lhsNonContracting := [0]
  rhsNonContracting := [1]
  lhsBatch := []
  rhsBatch := []
  wf := dot_S1x64_S64x4096_S1x4096_1_0_0_1_n_n_wf

abbrev win0_0 : Pipeline.Window sig grid0 :=
  Pipeline.Window.ofSpec (Memref.whole main_v6) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S65x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.KernelOperands.lean ====
/-
  THE KERNEL'S THREE OPERANDS, READ AT AN ENTRY.

  The kernel is launched on three tables computed from the parameter matrix p (65 × 64) and the input x:

  * the expanded weights, 2080 × 128: row 32·j + b (hidden unit j, sub-batch b), column 4·b' + f (sub-batch b',
    feature f) holds w(j, f) · [b = b'], where w(j, f) = p(j, f) for j < 64 and 0 for the extra unit j = 64;
  * the side table, 2080 × 2: row 32·j + b holds (bias(j), out(j)) with bias(j) = p(j, 4), out(j) = p(64, j) for
    j < 64, and bias(64) = 1, out(64) = p(0, 8);
  * x re-laid as 65536 × 128: row r, column 4·b' + f holds x(32·r + b', f).
-/
import proofs.«114560_g2000104039907715_pallasbulk_1158_2_alg».proof.Proof.Gen.KernelIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.Critic.KernelOperands

open Idealize.ShloMosaic Idealize.ShloMosaic.ValueIdx Cert.KernelIdeal

/-- Row 32·j + b of the expanded tables: hidden unit j, sub-batch b. -/
abbrev row (j : Fin 65) (b : Fin 32) : Fin 2080 := ⟨32 * j.val + b.val, by have := j.isLt; have := b.isLt; omega⟩
/-- Column 4·b + f of a 128-wide row: sub-batch b, feature f. -/
abbrev col (b : Fin 32) (f : Fin 4) : Fin 128 := ⟨4 * b.val + f.val, by have := b.isLt; have := f.isLt; omega⟩
/-- Batch element 32·r + b. -/
abbrev elem (r : Fin 65536) (b : Fin 32) : Fin 2097152 := ⟨32 * r.val + b.val, by have := r.isLt; have := b.isLt; omega⟩

/-! ## The terms -/

/-- The first-layer weights with a zero row appended for the extra unit. -/
def w1e (p : FVec Ideal S65x64 .f32) : FVec Ideal S65x4 .f32 :=
  concatenate S65x4 0 [⟨S64x4, extractStridedSlice S64x4 ![0, 0] p Facts₀.slices_S65x64_S64x4_0_0⟩,
    ⟨S1x4, broadcastInDim S1x4 ![] Facts₀.bcast_S_S1x4 (constant (F := Ideal) S_ .f32 0x00000000#32)⟩]
    Facts₀.concatenates_S64x4_S1x4_S65x4_d0

/-- The first-layer biases with a one appended. -/
def b1e (p : FVec Ideal S65x64 .f32) : FVec Ideal S65 .f32 :=
  concatenate S65 0 [⟨S64, shapeCast S64 (extractStridedSlice S64x1 ![0, 4] p Facts₀.slices_S65x64_S64x1_0_4) Facts₀.shapeCasts_S64x1_S64⟩,
    ⟨S1, broadcastInDim S1 ![] Facts₀.bcast_S_S1 (constant (F := Ideal) S_ .f32 0x3F800000#32)⟩]
    Facts₀.concatenates_S64_S1_S65_d0

/-- The second-layer weights with the second-layer bias appended. -/
def w2e (p : FVec Ideal S65x64 .f32) : FVec Ideal S65 .f32 :=
  concatenate S65 0 [⟨S64, shapeCast S64 (extractStridedSlice S1x64 ![64, 0] p Facts₀.slices_S65x64_S1x64_64_0) Facts₀.shapeCasts_S1x64_S64⟩,
    ⟨S1, broadcastInDim S1 ![] Facts₀.bcast_S_S1 (shapeCast S_ (extractStridedSlice S1x1 ![0, 8] p Facts₀.slices_S65x64_S1x1_0_8) Facts₀.shapeCasts_S1x1_S_)⟩]
    Facts₀.concatenates_S64_S1_S65_d0

/-- The 32 × 32 identity pattern as numbers. -/
def eye : FVec Ideal S32x32 .f32 :=
  uitofp .f32 (cmpi .eq (addi (iotaInDim S32x32 32 0) (broadcastInDim S32x32 ![] Facts₀.bcast_S_S32x32 (constantI S_ 32 0#32)))
    (iotaInDim S32x32 32 1))

/-- The expanded weights. -/
def m1t (p : FVec Ideal S65x64 .f32) : FVec Ideal S2080x128 .f32 :=
  shapeCast S2080x128
    (mulf
      (broadcastInDim S65x32x32x4 ![0, 1, 2, 3] Facts₀.bcast_S65x1x1x4_S65x32x32x4_0_1_2_3
        (broadcastInDim S65x1x1x4 ![0, 3] Facts₀.bcast_S65x4_S65x1x1x4_0_3 (w1e p)))
      (broadcastInDim S65x32x32x4 ![0, 1, 2, 3] Facts₀.bcast_S1x32x32x1_S65x32x32x4_0_1_2_3
        (broadcastInDim S1x32x32x1 ![1, 2] Facts₀.bcast_S32x32_S1x32x32x1_1_2 eye)))
    Facts₀.shapeCasts_S65x32x32x4_S2080x128

/-- A 65-vector repeated 32 times per entry, as a 2080 × 1 column. -/
def spread (v : FVec Ideal S65 .f32) : FVec Ideal S2080x1 .f32 :=
  broadcastInDim S2080x1 ![0] Facts₀.bcast_S2080_S2080x1_0
    (shapeCast S2080 (broadcastInDim S65x32 ![0, 1] Facts₀.bcast_S65x1_S65x32_0_1
      (broadcastInDim S65x1 ![0] Facts₀.bcast_S65_S65x1_0 v)) Facts₀.shapeCasts_S65x32_S2080)

/-- The side table. -/
def aux (p : FVec Ideal S65x64 .f32) : FVec Ideal S2080x2 .f32 :=
  concatenate S2080x2 1 [⟨S2080x1, spread (b1e p)⟩, ⟨S2080x1, spread (w2e p)⟩] Facts₀.concatenates_S2080x1_S2080x1_S2080x2_d1

/-- x re-laid 128 to a row. -/
def xr (x : FVec Ideal S2097152x4 .f32) : FVec Ideal S65536x128 .f32 :=
  shapeCast S65536x128 x Facts₀.shapeCasts_S2097152x4_S65536x128

/-! ## The small vectors, entry by entry -/

theorem w1e_main (p : FVec Ideal S65x64 .f32) (j : Fin 64) (f : Fin 4) :
    w1e p (ix2 j.castSucc f) = p (ix2 j.castSucc (Fin.castLE (by decide) f)) := by
  unfold w1e
  refine (concatenate_pair_apply_left (t := S65x4) (s₁ := S64x4) (s₂ := S1x4) (0 : Fin 2) _ _ _ (ix2 j.castSucc f) rfl (ix2 j f) ?_).trans ?_
  · intro b
    match b with
    | ⟨0, _⟩ => rfl
    | ⟨1, _⟩ => rfl
  · exact extractStridedSlice_apply _ p _ _ _ fun a => match a with
      | ⟨0, _⟩ => (Nat.zero_add _).symm
      | ⟨1, _⟩ => (Nat.zero_add _).symm

theorem w1e_last (p : FVec Ideal S65x64 .f32) (f : Fin 4) :
    w1e p (ix2 (Fin.last 64) f) = Ideal.ofBits .f32 0x00000000#32 := by
  unfold w1e
  refine (concatenate_pair_apply_right (t := S65x4) (s₁ := S64x4) (s₂ := S1x4) (0 : Fin 2) _ _ _ (ix2 (Fin.last 64) f) rfl rfl (ix2 (0 : Fin 1) f) ?_ ?_).trans ?_
  · intro b hb
    match b, hb with
    | ⟨0, _⟩, hb => exact absurd rfl hb
    | ⟨1, _⟩, _ => rfl
  · rfl
  · exact (broadcastInDim_scalar_apply _ _ _).trans rfl

theorem b1e_main (p : FVec Ideal S65x64 .f32) (j : Fin 64) :
    b1e p (ix1 j.castSucc) = p (ix2 j.castSucc (4 : Fin 64)) := by
  unfold b1e
  refine (concatenate_pair_apply_left (t := S65) (s₁ := S64) (s₂ := S1) (0 : Fin 1) _ _ _ (ix1 j.castSucc) rfl (ix1 j) ?_).trans ?_
  · intro b
    match b with
    | ⟨0, _⟩ => rfl
  · refine (shapeCast_apply _ _ (ix1 j) (ix2 j (0 : Fin 1)) ?_).trans ?_
    · rw [Shape.rowMajor_val_two, Shape.rowMajor_val_one]
      show j.val * 1 + 0 = j.val
      omega
    · exact extractStridedSlice_apply _ p _ _ _ fun a => match a with
        | ⟨0, _⟩ => (Nat.zero_add _).symm
        | ⟨1, _⟩ => rfl

theorem b1e_last (p : FVec Ideal S65x64 .f32) :
    b1e p (ix1 (Fin.last 64)) = Ideal.ofBits .f32 0x3F800000#32 := by
  unfold b1e
  refine (concatenate_pair_apply_right (t := S65) (s₁ := S64) (s₂ := S1) (0 : Fin 1) _ _ _ (ix1 (Fin.last 64)) rfl rfl (ix1 (0 : Fin 1)) ?_ ?_).trans ?_
  · intro b hb
    match b, hb with
    | ⟨0, _⟩, hb => exact absurd rfl hb
  · rfl
  · exact (broadcastInDim_scalar_apply _ _ _).trans rfl

theorem w2e_main (p : FVec Ideal S65x64 .f32) (j : Fin 64) :
    w2e p (ix1 j.castSucc) = p (ix2 (Fin.last 64) j) := by
  unfold w2e
  refine (concatenate_pair_apply_left (t := S65) (s₁ := S64) (s₂ := S1) (0 : Fin 1) _ _ _ (ix1 j.castSucc) rfl (ix1 j) ?_).trans ?_
  · intro b
    match b with
    | ⟨0, _⟩ => rfl
  · refine (shapeCast_apply _ _ (ix1 j) (ix2 (0 : Fin 1) j) ?_).trans ?_
    · rw [Shape.rowMajor_val_two, Shape.rowMajor_val_one]
      show 0 * 64 + j.val = j.val
      omega
    · exact extractStridedSlice_apply _ p _ _ _ fun a => match a with
        | ⟨0, _⟩ => rfl
        | ⟨1, _⟩ => (Nat.zero_add _).symm

theorem w2e_last (p : FVec Ideal S65x64 .f32) :
    w2e p (ix1 (Fin.last 64)) = p (ix2 (0 : Fin 65) (8 : Fin 64)) := by
  unfold w2e
  refine (concatenate_pair_apply_right (t := S65) (s₁ := S64) (s₂ := S1) (0 : Fin 1) _ _ _ (ix1 (Fin.last 64)) rfl rfl (ix1 (0 : Fin 1)) ?_ ?_).trans ?_
  · intro b hb
    match b, hb with
    | ⟨0, _⟩, hb => exact absurd rfl hb
  · rfl
  · refine (broadcastInDim_scalar_apply _ _ _).trans ?_
    refine (shapeCast_apply _ _ ix0 (ix2 (0 : Fin 1) (0 : Fin 1)) ?_).trans ?_
    · rw [Shape.rowMajor_val_two]; rfl
    · exact extractStridedSlice_apply _ p _ _ _ fun a => match a with
        | ⟨0, _⟩ => rfl
        | ⟨1, _⟩ => rfl

/-- The identity pattern: one on the diagonal, zero off it. -/
theorem eye_apply (b b' : Fin 32) : eye (ix2 b b') = if b = b' then 1 else 0 := by
  have key : ∀ b b' : Fin 32, (BitVec.ofNat 32 b.val + 0#32 == BitVec.ofNat 32 b'.val) = decide (b = b') := by decide +kernel
  show ((((BitVec.ofBool (BitVec.ofNat 32 b.val + 0#32 == BitVec.ofNat 32 b'.val)).toNat : ℝ) : EReal)) = _
  rw [key]
  by_cases h : b = b'
  · rw [if_pos h, decide_eq_true h]; simp
  · rw [if_neg h, decide_eq_false h]; simp

/-! ## The three tables, entry by entry -/

/-- The expanded weights at row (j, b), column (b', f): the weight of unit j on feature f, times the identity pattern. -/
theorem m1t_apply (p : FVec Ideal S65x64 .f32) (j : Fin 65) (b b' : Fin 32) (f : Fin 4) :
    m1t p (ix2 (row j b) (col b' f)) = w1e p (ix2 j f) * eye (ix2 b b') := by
  unfold m1t
  refine (shapeCast_apply _ _ (ix2 (row j b) (col b' f)) (ix4 j b b' f) ?_).trans ?_
  · rw [Shape.rowMajor_val_four, Shape.rowMajor_val_two]
    show ((j.val * 32 + b.val) * 32 + b'.val) * 4 + f.val = (32 * j.val + b.val) * 128 + (4 * b'.val + f.val)
    omega
  · rw [mulf_apply]
    refine congrArg₂ (· * ·) ?_ ?_
    · refine (broadcastInDim_apply _ _ _ (ix4 j b b' f) (ix4 j (0 : Fin 1) (0 : Fin 1) f) ?_).trans ?_
      · intro a
        match a with
        | ⟨0, _⟩ => rfl
        | ⟨1, _⟩ => rfl
        | ⟨2, _⟩ => rfl
        | ⟨3, _⟩ => rfl
      · refine broadcastInDim_apply _ _ _ (ix4 j (0 : Fin 1) (0 : Fin 1) f) (ix2 j f) ?_
        intro a
        match a with
        | ⟨0, _⟩ => rfl
        | ⟨1, _⟩ => rfl
    · refine (broadcastInDim_apply _ _ _ (ix4 j b b' f) (ix4 (0 : Fin 1) b b' (0 : Fin 1)) ?_).trans ?_
      · intro a
        match a with
        | ⟨0, _⟩ => rfl
        | ⟨1, _⟩ => rfl
        | ⟨2, _⟩ => rfl
        | ⟨3, _⟩ => rfl
      · refine broadcastInDim_apply _ _ _ (ix4 (0 : Fin 1) b b' (0 : Fin 1)) (ix2 b b') ?_
        intro a
        match a with
        | ⟨0, _⟩ => rfl
        | ⟨1, _⟩ => rfl

/-- A spread 65-vector at row (j, b): the vector's entry j. -/
theorem spread_apply (v : FVec Ideal S65 .f32) (j : Fin 65) (b : Fin 32) (u : Fin 1) :
    spread v (ix2 (row j b) u) = v (ix1 j) := by
  unfold spread
  refine (broadcastInDim_apply _ _ _ (ix2 (row j b) u) (ix1 (row j b)) ?_).trans ?_
  · intro a
    match a with
    | ⟨0, _⟩ => rfl
  refine (shapeCast_apply _ _ (ix1 (row j b)) (ix2 j b) ?_).trans ?_
  · rw [Shape.rowMajor_val_two, Shape.rowMajor_val_one]
    show j.val * 32 + b.val = 32 * j.val + b.val
    omega
  refine (broadcastInDim_apply _ _ _ (ix2 j b) (ix2 j (0 : Fin 1)) ?_).trans ?_
  · intro a
    match a with
    | ⟨0, _⟩ => rfl
    | ⟨1, _⟩ => rfl
  refine broadcastInDim_apply _ _ _ (ix2 j (0 : Fin 1)) (ix1 j) ?_
  intro a
  match a with
  | ⟨0, _⟩ => rfl

/-- The side table's first column at row (j, b): the bias of unit j. -/
theorem aux_bias (p : FVec Ideal S65x64 .f32) (j : Fin 65) (b : Fin 32) :
    aux p (ix2 (row j b) (0 : Fin 2)) = b1e p (ix1 j) := by
  unfold aux
  refine (concatenate_pair_apply_left (t := S2080x2) (s₁ := S2080x1) (s₂ := S2080x1) (1 : Fin 2) _ _ _ (ix2 (row j b) (0 : Fin 2)) rfl
    (ix2 (row j b) (0 : Fin 1)) ?_).trans (spread_apply _ j b 0)
  intro a
  match a with
  | ⟨0, _⟩ => rfl
  | ⟨1, _⟩ => rfl

/-- The side table's second column at row (j, b): the read-out weight of unit j. -/
theorem aux_out (p : FVec Ideal S65x64 .f32) (j : Fin 65) (b : Fin 32) :
    aux p (ix2 (row j b) (1 : Fin 2)) = w2e p (ix1 j) := by
  unfold aux
  refine (concatenate_pair_apply_right (t := S2080x2) (s₁ := S2080x1) (s₂ := S2080x1) (1 : Fin 2) _ _ _ (ix2 (row j b) (1 : Fin 2)) rfl rfl
    (ix2 (row j b) (0 : Fin 1)) ?_ ?_).trans (spread_apply _ j b 0)
  · intro a ha
    match a, ha with
    | ⟨0, _⟩, _ => rfl
    | ⟨1, _⟩, ha => exact absurd rfl ha
  · rfl

/-- x re-laid: row r, column (b', f) holds feature f of batch element 32·r + b'. -/
theorem xr_apply (x : FVec Ideal S2097152x4 .f32) (r : Fin 65536) (b' : Fin 32) (f : Fin 4) :
    xr x (ix2 r (col b' f)) = x (ix2 (elem r b') f) := by
  unfold xr
  refine shapeCast_apply _ _ (ix2 r (col b' f)) (ix2 (elem r b') f) ?_
  rw [Shape.rowMajor_val_two, Shape.rowMajor_val_two]
  show (32 * r.val + b'.val) * 4 + f.val = r.val * 128 + (4 * b'.val + f.val)
  omega

end Cert.Critic.KernelOperands

end
-- ==== Proof.KernelHost.lean ====
/-
  WHAT THE KERNEL IS LAUNCHED ON.

  The program computes, before the launch, the expanded weights, the side table and the re-laid input from its two
  arguments; the arrays the kernel's windows read are those three tables of the arguments' contents.
-/
import proofs.«114560_g2000104039907715_pallasbulk_1158_2_alg».proof.Proof.Gen.KernelIdeal.Frame
import proofs.«114560_g2000104039907715_pallasbulk_1158_2_alg».proof.Proof.KernelOperands
import Idealize.ShloMosaic.Lib.StableHlo.Run

noncomputable section

namespace Cert.Critic.KernelHost

open Idealize.ShloMosaic Idealize.ShloMosaic.TcCoe Idealize.SL.Sem Idealize.ShloMosaic.StableHlo
open Cert.KernelIdeal Cert.Critic.KernelOperands

variable (m : (ℓ : Loc nD τ sig) → Buf (Elt Ideal) ℓ) (c : Dev nD)

/-- The re-laid input, as the kernel finds it. -/
theorem V_xr : (Gen.V m c main_v34 : S65536x128.Idx → EReal) = xr (m ((c : Thread nD τ).loc main_arg0)) := by
  dsimp only [Gen.V, Gen.V0]
  simp only [Gen.hostOps0, List.flatten_cons, List.flatten_nil, List.append_nil, List.cons_append, List.nil_append]
  after_results
  rfl

set_option maxHeartbeats 4000000 in
/-- The expanded weights, as the kernel finds them. -/
theorem V_m1t : (Gen.V m c main_v24 : S2080x128.Idx → EReal) = m1t (m ((c : Thread nD τ).loc main_arg1)) := by
  dsimp only [Gen.V, Gen.V0]
  simp only [Gen.hostOps0, List.flatten_cons, List.flatten_nil, List.append_nil, List.cons_append, List.nil_append]
  after_results
  rfl

set_option maxHeartbeats 4000000 in
/-- The side table, as the kernel finds it. -/
theorem V_aux : (Gen.V m c main_v33 : S2080x2.Idx → EReal) = aux (m ((c : Thread nD τ).loc main_arg1)) := by
  dsimp only [Gen.V, Gen.V0]
  simp only [Gen.hostOps0, List.flatten_cons, List.flatten_nil, List.append_nil, List.cons_append, List.nil_append]
  after_results
  rfl

end Cert.Critic.KernelHost

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibTransMatmul.lean ====
/-
  A KERNEL'S MATRIX PRODUCT WITH THE WEIGHT'S LAST AXIS CONTRACTED (x · Wᵀ), AND A DENSE LAYER OVER IT, AT AN ENTRY.

  A matrix product of an [M, K] block with an [N, K] block that contracts the last axis of both, accumulated into the
  zero block, has at (r, q) the sum over k of the left block's (r, k) times the right block's (q, k). A dense layer adds to
  it a bias row [1, N] repeated down the M rows: at (r, q) that adds the bias row's entry q.
-/
import proofs.«114560_g2000104039907715_pallasbulk_1158_2_alg».proof.Proof.LibTransDot
import Idealize.ShloMosaic.Lib.ValueLayout

noncomputable section

open scoped BigOperators

namespace Cert.Lib

open Idealize.ShloMosaic Idealize.ShloMosaic.ValueIdx

variable {M K N : Nat} (d : DotDims ⟨2, ![M, K]⟩ ⟨2, ![N, K]⟩ ⟨2, ![M, N]⟩)

/-- x · Wᵀ into the zero block at (r, q): the sum over k of x (r, k) · W (q, k). -/
theorem matmul_t2_zero_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q) = ∑ k : Fin K, a (ix2 r k) * b (ix2 q k) :=
  (Ideal.matmul_constant_zero_apply d prec a b (ix2 r q)).trans
    (sum_contr_t2 d hl hr hln hrn hlb hrb (fun i j => a i * b j) r q)

/-- A dense layer x · Wᵀ + b at (r, q): the contraction sum plus the bias row's entry q. -/
theorem dense_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (bias : FVec Ideal ⟨2, ![1, N]⟩ .f32) (hb : (⟨2, ![1, N]⟩ : Shape).Broadcasts ⟨2, ![M, N]⟩) (r : Fin M) (q : Fin N) :
    addf (matmul d prec a b (constant (F := Ideal) ⟨2, ![M, N]⟩ .f32 0x00000000#32)) (broadcastTo ⟨2, ![M, N]⟩ bias hb) (ix2 r q)
      = (∑ k : Fin K, a (ix2 r k) * b (ix2 q k)) + bias (ix2 (0 : Fin 1) q) :=
  congrArg₂ (· + ·) (matmul_t2_zero_at d hl hr hln hrn hlb hrb prec a b r q) (broadcastTo_1b_ab_apply bias hb r q)

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelBody.lean ====
/-
  THE KERNEL'S BODY AT AN ENTRY.

  At one grid point the body holds the expanded weights W (2080 × 128), a block Xb of 2048 rows of the re-laid input
  (2048 × 128) and the two columns of the side table. It forms W · Xbᵀ (2080 × 2048), adds the bias column along the
  rows, rectifies, scales by the read-out column, views the 2080 rows as 65 units × 32 sub-batches and sums over the
  units. So its entry (b, q) is

      Σ_{j < 65} max(Σ_{k < 128} W(32·j + b, k) · Xb(q, k) + bias(32·j + b), 0) · out(32·j + b).
-/
import proofs.«114560_g2000104039907715_pallasbulk_1158_2_alg».proof.Proof.Gen.KernelIdeal.Skeleton
import proofs.«114560_g2000104039907715_pallasbulk_1158_2_alg».proof.Proof.KernelOperands
import proofs.«114560_g2000104039907715_pallasbulk_1158_2_alg».proof.Proof.LibTransMatmul
import proofs.«114560_g2000104039907715_pallasbulk_1158_2_alg».proof.Proof.LibColBroadcast
import Idealize.ShloMosaic.PureOps.Ideal.Laws
import Idealize.ShloMosaic.Lib.ValueIdx
import Idealize.ShloMosaic.Lib.Pipeline.Value

noncomputable section

open scoped BigOperators

namespace Cert.Critic.KernelBody

open Idealize.ShloMosaic Idealize.ShloMosaic.ValueIdx Cert.KernelIdeal Cert.Critic.KernelOperands Cert.Lib

/-- Summing a 65 × 32 × 2048 array over its leading axis reads, for the result's entry (b, q) and unit j, the entry
    (j, b, q). -/
theorem lift_eq (h : S65x32x2048.Reduces [0] S32x2048) (b : Fin 32) (q : Fin 2048) (j : Fin 65) :
    h.lift (ix2 b q) j = ix3 j b q := by
  funext c
  apply Fin.ext
  match c with
  | ⟨0, _⟩ => rfl
  | ⟨1, _⟩ => rfl
  | ⟨2, _⟩ => rfl

/-- The body's result at (b, q). -/
theorem payload_apply (x0 : FVec Ideal S2080x128 .f32) (x2 : FVec Ideal S2048x128 .f32) (v5 v11 : FVec Ideal S2080x1 .f32)
    (b : Fin 32) (q : Fin 2048) :
    Gen.k0_pay1 x0 x2 v5 v11 (ix2 b q)
      = ∑ j : Fin 65, max ((∑ k : Fin 128, x0 (ix2 (row j b) k) * x2 (ix2 q k)) + v5 (ix2 (row j b) (0 : Fin 1)))
          (Ideal.ofBits .f32 0x00000000#32) * v11 (ix2 (row j b) (0 : Fin 1)) := by
  unfold Gen.k0_pay1
  dsimp only
  refine (Ideal.multiReduction_add_single _ _ _ _ _ (ix2 b q)).trans ?_
  show ∑ j : Fin 65, _ = _
  refine Finset.sum_congr rfl fun j _ => ?_
  refine (congrArg _ (lift_eq _ b q j)).trans ?_
  refine (shapeCast_apply _ _ (ix3 j b q) (ix2 (row j b) q) (by
    rw [Shape.rowMajor_val_three, Shape.rowMajor_val_two]
    show (32 * j.val + b.val) * 2048 + q.val = (j.val * 32 + b.val) * 2048 + q.val
    omega)).trans ?_
  rw [mulf_apply, maximumf_apply, addf_apply, broadcastTo_a1_ab_apply, broadcastTo_a1_ab_apply, shapeCast_self, shapeCast_self,
    shapeCast_self, shapeCast_self, matmul_t2_zero_at _ rfl rfl rfl rfl rfl rfl]
  rfl

end Cert.Critic.KernelBody

end
-- ==== Proof.KernelValue.lean ====
/-
  THE KERNEL PROGRAM'S RESULT.

  Grid point t of the kernel reads rows 2048·t … 2048·t + 2047 of the re-laid input and writes columns
  2048·t … 2048·t + 2047 of a 32 × 65536 array; the 32 blocks tile it. So after the launch the array holds, at
  (b, r), the body's formula on row r of the re-laid input and the rows 32·j + b of the two tables. The program then
  transposes the array and re-lays it as a column: entry (32·r + b, 0) of the result is the array's entry (b, r).
-/
import proofs.«114560_g2000104039907715_pallasbulk_1158_2_alg».proof.Proof.Gen.KernelIdeal.Frame
import proofs.«114560_g2000104039907715_pallasbulk_1158_2_alg».proof.Proof.KernelHost
import proofs.«114560_g2000104039907715_pallasbulk_1158_2_alg».proof.Proof.KernelBody
import Idealize.ShloMosaic.Lib.Pipeline.Value
import Idealize.ShloMosaic.Lib.StableHlo.Run

set_option maxRecDepth 16384

noncomputable section

open scoped BigOperators

namespace Cert.Critic.KernelValue

open Idealize.ShloMosaic Idealize.ShloMosaic.TcCoe Idealize.SL.Sem Idealize.ShloMosaic.ValueIdx Idealize.ShloMosaic.StableHlo
open Cert.KernelIdeal
open Cert.Critic.KernelOperands Cert.Critic.KernelBody Cert.Critic.KernelHost

variable (m : (ℓ : Loc nD τ sig) → Buf (Elt Ideal) ℓ) (ρ : Dev nD → PrngReg)

/-- The kernel's array at (b, r), from the parameter matrix p and the input x. -/
def outAt (p : FVec Ideal S65x64 .f32) (x : FVec Ideal S2097152x4 .f32) (b : Fin 32) (r : Fin 65536) : EReal :=
  ∑ j : Fin 65, max ((∑ k : Fin 128, m1t p (ix2 (row j b) k) * xr x (ix2 r k)) + aux p (ix2 (row j b) (0 : Fin 2)))
    (Ideal.ofBits .f32 0x00000000#32) * aux p (ix2 (row j b) (1 : Fin 2))

/-- The kernel's array. -/
def outArr (p : FVec Ideal S65x64 .f32) (x : FVec Ideal S2097152x4 .f32) : S32x65536.Idx → EReal :=
  fun i => outAt p x (i 0) (i 1)

theorem hz : (![0, 0] : Fin 2 → Nat) = fun _ => 0 := funext fun a => by fin_cases a <;> rfl

/-- Column 2048·t + q of the array: column q of grid point t's block. -/
abbrev gcol (t : Fin cfg0.N) (q : Fin 2048) : Fin 65536 :=
  ⟨2048 * t.val + q.val, by have h := t.isLt; have hN : cfg0.N = 32 := Gen.N_0; have := q.isLt; omega⟩

/-- The block each window reads or writes at grid point t: the two tables whole, the t-th row block of the input, the
    t-th column block of the output. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The weights block at every grid point is the whole table. -/
theorem blk_w (c : Dev nD) (t : Fin cfg0.N) (r : Fin 2080) (k : Fin 128) :
    Gen.iblk m c 0 t (ix2 r k) = m1t (m ((c : Thread nD τ).loc main_arg1)) (ix2 r k) := by
  obtain ⟨e0, e1, -⟩ := idx_facts t
  show Gen.V m c main_v24 (((cfg0.win 0).blk t).view.emb (ix2 r k)) = _
  refine (congrFun (V_m1t m c) _).trans (congrArg _ (funext fun a => Fin.ext ?_))
  match a with
  | ⟨0, _⟩ =>
    show win0_0.index t (0 : Fin 2) * 2080 + 1 * r.val = r.val
    omega
  | ⟨1, _⟩ =>
    show win0_0.index t (1 : Fin 2) * 128 + 1 * k.val = k.val
    omega

/-- The input block at grid point t is rows 2048·t … of the re-laid input. -/
theorem blk_x (c : Dev nD) (t : Fin cfg0.N) (q : Fin 2048) (k : Fin 128) :
    Gen.iblk m c 2 t (ix2 q k) = xr (m ((c : Thread nD τ).loc main_arg0)) (ix2 (gcol t q) k) := by
  obtain ⟨-, -, -, -, e4, e5, -⟩ := idx_facts t
  show Gen.V m c main_v34 (((cfg0.win 2).blk t).view.emb (ix2 q k)) = _
  refine (congrFun (V_xr m c) _).trans (congrArg _ (funext fun a => Fin.ext ?_))
  match a with
  | ⟨0, _⟩ =>
    show win0_2.index t (0 : Fin 2) * 2048 + 1 * q.val = 2048 * t.val + q.val
    omega
  | ⟨1, _⟩ =>
    show win0_2.index t (1 : Fin 2) * 128 + 1 * k.val = k.val
    omega

/-- The bias column the body loads is column 0 of the side table. -/
theorem blk_bias (c : Dev nD) (t : Fin cfg0.N) (r : Fin 2080) :
    View.ld (Gen.iblk m c 1 t) Gen.r0_2 (ix2 r (0 : Fin 1)) = aux (m ((c : Thread nD τ).loc main_arg1)) (ix2 r (0 : Fin 2)) := by
  obtain ⟨-, -, e2, e3, -⟩ := idx_facts t
  show Gen.V m c main_v33 (((cfg0.win 1).blk t).view.emb (Gen.r0_2.idx (ix2 r (0 : Fin 1)))) = _
  refine (congrFun (V_aux m c) _).trans (congrArg _ (funext fun a => Fin.ext ?_))
  match a with
  | ⟨0, _⟩ =>
    show win0_1.index t (0 : Fin 2) * 2080 + 1 * (0 + 1 * r.val) = r.val
    omega
  | ⟨1, _⟩ =>
    show win0_1.index t (1 : Fin 2) * 2 + 1 * (0 + 1 * 0) = 0
    omega

/-- The read-out column the body loads is column 1 of the side table. -/
theorem blk_out (c : Dev nD) (t : Fin cfg0.N) (r : Fin 2080) :
    View.ld (Gen.iblk m c 1 t) Gen.r0_3 (ix2 r (0 : Fin 1)) = aux (m ((c : Thread nD τ).loc main_arg1)) (ix2 r (1 : Fin 2)) := by
  obtain ⟨-, -, e2, e3, -⟩ := idx_facts t
  show Gen.V m c main_v33 (((cfg0.win 1).blk t).view.emb (Gen.r0_3.idx (ix2 r (0 : Fin 1)))) = _
  refine (congrFun (V_aux m c) _).trans (congrArg _ (funext fun a => Fin.ext ?_))
  match a with
  | ⟨0, _⟩ =>
    show win0_1.index t (0 : Fin 2) * 2080 + 1 * (0 + 1 * r.val) = r.val
    omega
  | ⟨1, _⟩ =>
    show win0_1.index t (1 : Fin 2) * 2 + 1 * (1 + 1 * 0) = 1
    omega

/-- What grid point t writes back is its block of the array. -/
theorem flushed_eq (c : Dev nD) (t : Fin cfg0.N) :
    (Gen.dats m 0 c).flushed 3 t = ((cfg0.win 3).blk t).view.read (Elt Ideal)
      (outArr (m ((c : Thread nD τ).loc main_arg1)) (m ((c : Thread nD τ).loc main_arg0))) := by
  show (cfg0.win 3).cut (grid0.coords t) ((Gen.dats m 0 c).after 3 t) = _
  rw [Gen.after0_3]
  unfold Gen.out0_3
  rw [View.canon_unit_zero hz]
  simp only [View.ld_unit_zero (S := S2080x128) hz, View.ld_unit_zero (S := S2048x128) hz]
  funext y
  obtain ⟨b, q, rfl⟩ : ∃ (b : Fin 32) (q : Fin 2048), y = ix2 b q := ⟨y 0, y 1, eq_ix2 y⟩
  refine (payload_apply (Gen.iblk m c 0 t) (Gen.iblk m c 2 t) (View.ld (Gen.iblk m c 1 t) Gen.r0_2) (View.ld (Gen.iblk m c 1 t) Gen.r0_3) b q).trans ?_
  obtain ⟨-, -, -, -, -, -, e6, e7⟩ := idx_facts t
  have hemb : ((cfg0.win 3).blk t).view.emb (ix2 b q) = ix2 b (gcol t q) := by
    funext a
    apply Fin.ext
    match a with
    | ⟨0, _⟩ =>
      show win0_3.index t (0 : Fin 2) * 32 + 1 * b.val = b.val
      omega
    | ⟨1, _⟩ =>
      show win0_3.index t (1 : Fin 2) * 2048 + 1 * q.val = 2048 * t.val + q.val
      omega
  show _ = outArr _ _ (((cfg0.win 3).blk t).view.emb (ix2 b q))
  rw [hemb]
  show _ = outAt _ _ b (gcol t q)
  unfold outAt
  exact Finset.sum_congr rfl fun j _ => congrArg₂ (· * ·)
    (congrArg₂ max (congrArg₂ (· + ·) (Finset.sum_congr rfl fun k _ => congrArg₂ (· * ·) (blk_w m c t _ k) (blk_x m c t q k))
      (blk_bias m c t _)) rfl) (blk_out m c t _)

/-- An index of the array is in grid point t's block iff each coordinate is in the block's range. -/
theorem mem_blk (t : Fin cfg0.N) (i : S32x65536.Idx) :
    i ∈ ((cfg0.win 3).blk t).view.set ↔ ∀ a : Fin 2, win0_3.index t a * S32x2048.size a ≤ (i a).val
      ∧ (i a).val < win0_3.index t a * S32x2048.size a + S32x2048.size a := by
  show i ∈ ((View.whole main_v35).slice (win0_3.rect t)).set ↔ _
  rw [View.set_slice_whole, Rect.mem_set_unit]
  exact Iff.rfl

/-- Every column is in the block of the grid point that is its quotient by 2048. -/
theorem cover (i : S32x65536.Idx) : ∃ t : Fin cfg0.N, (cfg0.win 3).flush t = true ∧ i ∈ ((cfg0.win 3).blk t).view.set := by
  have hN : cfg0.N = 32 := Gen.N_0
  have h0 : (i 0).val < 32 := (i 0).isLt
  have h1 : (i 1).val < 65536 := (i 1).isLt
  obtain ⟨t, ht⟩ : ∃ t : Fin cfg0.N, t.val = (i 1).val / 2048 := ⟨⟨(i 1).val / 2048, by omega⟩, rfl⟩
  obtain ⟨-, -, -, -, -, -, e6, e7⟩ := idx_facts t
  refine ⟨t, Gen.flush0_3 t, ?_⟩
  rw [mem_blk]
  intro a
  match a with
  | ⟨0, _⟩ =>
    show win0_3.index t (0 : Fin 2) * 32 ≤ (i 0).val ∧ (i 0).val < win0_3.index t (0 : Fin 2) * 32 + 32
    omega
  | ⟨1, _⟩ =>
    show win0_3.index t (1 : Fin 2) * 2048 ≤ (i 1).val ∧ (i 1).val < win0_3.index t (1 : Fin 2) * 2048 + 2048
    omega

/-- The array after the launch. -/
theorem final (c : Dev nD) : (Gen.dats m 0 c).arrAt 3 cfg0.N
    = outArr (m ((c : Thread nD τ).loc main_arg1)) (m ((c : Thread nD τ).loc main_arg0)) :=
  (Gen.dats m 0 c).arrAt_eq_of_cover 3 _ (fun t _ => flushed_eq m c t) cover

/-- The program's result: the array transposed and re-laid as a column. -/
def result (p : FVec Ideal S65x64 .f32) (x : FVec Ideal S2097152x4 .f32) : S2097152x1.Idx → EReal :=
  shapeCast S2097152x1 (transpose S65536x32 [1, 0] (outArr p x) Facts₀.transposes_S32x65536_S65536x32_1_0)
    Facts₀.shapeCasts_S65536x32_S2097152x1

theorem tail_eq (c : Dev nD) :
    Pipeline.afterTail₀ cfgs (Gen.dats m) 0 (Gen.V0 m) [Gen.hostOps1] c main_v37
      = result (m ((c : Thread nD τ).loc main_arg1)) (m ((c : Thread nD τ).loc main_arg0)) := by
  unfold Pipeline.afterTail₀
  show StableHlo.after Gen.hostOps1 _ (Proc.devRef .tc main_v37) = _
  after_results
  have hw : Pipeline.withArrays (cfgs 0).spec c (Gen.V0 m c) (fun w => (Gen.dats m 0 c).arrAt w (cfgs 0).N) (Proc.devRef .tc main_v35)
      = outArr (m ((c : Thread nD τ).loc main_arg1)) (m ((c : Thread nD τ).loc main_arg0)) :=
    (Pipeline.withArrays_arr spec0 Gen.launch0.win.arr_inj c _ _ 3).trans (final m c)
  rw [hw]
  rfl

/-- The kernel program runs, ends with its result at `result` of the arguments, and leaves the arguments unchanged. -/
theorem run : θ_run defs (onTc (τ := τ) (main (F := Ideal))) ⟨m, fun _ => 0, ρ⟩ fun r => ∀ c : Dev nD,
      r.2.mem ((c.tc : Thread nD τ).loc main_v37)
        = result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v37 (Pipeline.mem_restRefs_of main_v37 (by decide) (by decide))).trans (tail_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c)⟩)
    (Gen.run_main m ρ)

end Cert.Critic.KernelValue

end
-- ==== Proof.LibGcnAlgebra.lean ====
/-
  THE ALGEBRA OF ONE GRAPH-CONVOLUTION LAYER, OVER THE EXTENDED REALS.

  A layer aggregates the node features h over the edges that land on a node, with an edge weight w and a
  self-loop weight sn, and multiplies by a dense weight matrix W.  Aggregating first and multiplying afterwards
  gives the same number as multiplying first and aggregating afterwards: over the reals this is distributivity and
  an exchange of two finite sums.  Over the extended reals multiplication does not distribute over addition at
  the infinities, so the identity is proved for entries that are real numbers: every entry is replaced by the real
  number it is, both sides become the image of one real expression, and the identity is the real one.
-/
import Mathlib.Data.EReal.Operations
import Mathlib.Algebra.BigOperators.Ring.Finset
import Mathlib.Algebra.BigOperators.Group.Finset.Basic
import Mathlib.Algebra.BigOperators.Group.Finset.Sigma

noncomputable section

open scoped BigOperators

namespace Cert.Lib

/-! ### Extended reals that are real numbers -/

/-- An extended real is real when it is the image of a real number (neither of the two infinities). -/
def IsReal (x : EReal) : Prop := ∃ r : ℝ, x = (r : EReal)

namespace IsReal

/-- The image of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A sum of two reals is real. -/
theorem add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The opposite of a real is real. -/
theorem neg {x : EReal} (hx : IsReal x) : IsReal (-x) := by
  obtain ⟨a, rfl⟩ := hx
  exact ⟨-a, (EReal.coe_neg a).symm⟩

/-- A difference of two reals is real. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real: the embedding of the reals is monotone, so it commutes with max. -/
theorem max {x y : EReal} (hx : IsReal x) (hy : IsReal y) : IsReal (max x y) := by
  obtain ⟨a, rfl⟩ := hx
  obtain ⟨b, rfl⟩ := hy
  exact ⟨Max.max a b, (EReal.coe_strictMono.monotone.map_max (a := a) (b := b)).symm⟩

/-- The smaller of two reals is real. -/
theorem min {x y : EReal} (hx : IsReal x) (hy : IsReal y) : IsReal (min x y) := by
  obtain ⟨a, rfl⟩ := hx
  obtain ⟨b, rfl⟩ := hy
  exact ⟨Min.min a b, (EReal.coe_strictMono.monotone.map_min (a := a) (b := b)).symm⟩

/-- A choice between two reals is real. -/
theorem ite {p : Prop} [Decidable p] {x y : EReal} (hx : IsReal x) (hy : IsReal y) :
    IsReal (if p then x else y) := by
  split
  · exact hx
  · exact hy

/-- A finite sum of reals is real. -/
theorem sum {α : Type*} (s : Finset α) (f : α → EReal) (hf : ∀ a ∈ s, IsReal (f a)) :
    IsReal (∑ a ∈ s, f a) := by
  classical
  induction s using Finset.induction_on with
  | empty => simpa using zero
  | insert a s ha ih =>
    rw [Finset.sum_insert ha]
    exact add (hf a (Finset.mem_insert_self a s))
      (ih fun b hb => hf b (Finset.mem_insert_of_mem hb))

/-- A sum of reals over a whole finite type is real. -/
theorem sum_univ {α : Type*} [Fintype α] (f : α → EReal) (hf : ∀ a, IsReal (f a)) :
    IsReal (∑ a, f a) :=
  sum Finset.univ f fun a _ => hf a

/-- A real is not plus infinity. -/
theorem ne_top {x : EReal} (hx : IsReal x) : x ≠ ⊤ := by
  obtain ⟨a, rfl⟩ := hx
  exact EReal.coe_ne_top a

/-- A real is not minus infinity. -/
theorem ne_bot {x : EReal} (hx : IsReal x) : x ≠ ⊥ := by
  obtain ⟨a, rfl⟩ := hx
  exact EReal.coe_ne_bot a

/-- An extended real that is neither infinity is real. -/
theorem of_ne {x : EReal} (hb : x ≠ ⊥) (ht : x ≠ ⊤) : IsReal x := by
  induction x using EReal.rec with
  | bot => exact absurd rfl hb
  | coe r => exact ⟨r, rfl⟩
  | top => exact absurd rfl ht

/-- Being real is being neither infinity. -/
theorem iff_ne {x : EReal} : IsReal x ↔ x ≠ ⊥ ∧ x ≠ ⊤ :=
  ⟨fun h => ⟨h.ne_bot, h.ne_top⟩, fun h => of_ne h.1 h.2⟩

end IsReal

/-! ### The embedding of the reals commutes with finite sums and with choices -/

/-- The image of a finite sum of real numbers is the sum of the images. -/
@[norm_cast]
theorem coe_finset_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The image of a choice between two real numbers is the choice between the images. -/
@[norm_cast]
theorem coe_ite (p : Prop) [Decidable p] (a b : ℝ) :
    ((if p then a else b : ℝ) : EReal) = if p then (a : EReal) else (b : EReal) := by
  split <;> rfl

/-- The image of a choice between a real number and zero. -/
theorem coe_ite_zero (p : Prop) [Decidable p] (a : ℝ) :
    ((if p then a else 0 : ℝ) : EReal) = if p then (a : EReal) else 0 := by
  split <;> rfl

/-! ### One layer, over the reals -/

section Real

variable {ι ε κ φ : Type*} [Fintype ε] [Fintype κ]

/-- Aggregate-then-transform equals transform-then-aggregate, over the reals.  The left side multiplies the
aggregated features (edge term plus self-loop term) by the weight matrix; the right side aggregates the already
multiplied features.  Both are the double sum over edges and feature coordinates plus the self-loop sum. -/
theorem gcn_layer_swap_real (h : ι → κ → ℝ) (W : κ → φ → ℝ) (g : ε → ι) (hit : ε → ι → Prop)
    [∀ e i, Decidable (hit e i)] (w : ε → ℝ) (sn : ι → ℝ) (i : ι) (f : φ) :
    ∑ k, ((0 + ∑ e, if hit e i then h (g e) k * w e else 0) + sn i * h i k) * W k f
      = 0 + ((∑ e, if hit e i then (∑ k, h (g e) k * W k f) * w e else 0)
          + (∑ k, h i k * W k f) * sn i) := by
  simp only [zero_add, add_mul, Finset.sum_add_distrib, Finset.sum_mul]
  congr 1
  · rw [Finset.sum_comm]
    refine Finset.sum_congr rfl fun e _ => ?_
    by_cases hc : hit e i
    · simp only [hc, if_true]
      refine Finset.sum_congr rfl fun k _ => ?_
      ring
    · simp only [hc, if_false, zero_mul, Finset.sum_const_zero]
  · refine Finset.sum_congr rfl fun k _ => ?_
    ring

end Real

/-! ### One layer, over the extended reals -/

section Ext

variable {ι ε κ φ : Type*} [Fintype ε] [Fintype κ]

/-- Aggregate-then-transform equals transform-then-aggregate, over the extended reals, when every entry of the
features, of the weight matrix, of the edge weights and of the self-loop weights is a real number.  Every entry
is replaced by the real number it is; then both sides are the image of the two sides of the real identity. -/
theorem gcn_layer_swap (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    ∑ k, ((0 + ∑ e, if hit e i then h (g e) k * w e else 0) + sn i * h i k) * W k f
      = 0 + ((∑ e, if hit e i then (∑ k, h (g e) k * W k f) * w e else 0)
          + (∑ k, h i k * W k f) * sn i) := by
  choose h' hh' using hh
  choose W' hW' using hW
  choose w' hw' using hw
  choose sn' hsn' using hsn
  obtain rfl : h = fun i k => (h' i k : EReal) := funext fun i => funext fun k => hh' i k
  obtain rfl : W = fun k f => (W' k f : EReal) := funext fun k => funext fun f => hW' k f
  obtain rfl : w = fun e => (w' e : EReal) := funext hw'
  obtain rfl : sn = fun i => (sn' i : EReal) := funext hsn'
  have key := congrArg Real.toEReal (gcn_layer_swap_real h' W' g hit w' sn' i f)
  simp only [EReal.coe_add, EReal.coe_mul, EReal.coe_zero, coe_finset_sum, coe_ite_zero] at key
  exact key

/-- The aggregate-then-transform side is real when every entry is. -/
theorem isReal_gcn_kernel_side (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    IsReal (∑ k, ((0 + ∑ e, if hit e i then h (g e) k * w e else 0) + sn i * h i k) * W k f) :=
  IsReal.sum_univ _ fun k =>
    (((IsReal.zero.add (IsReal.sum_univ _ fun e => IsReal.ite ((hh (g e) k).mul (hw e)) IsReal.zero)).add
      ((hsn i).mul (hh i k))).mul (hW k f))

/-- The transform-then-aggregate side is real when every entry is. -/
theorem isReal_gcn_reference_side (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    IsReal (0 + ((∑ e, if hit e i then (∑ k, h (g e) k * W k f) * w e else 0)
      + (∑ k, h i k * W k f) * sn i)) :=
  IsReal.zero.add
    ((IsReal.sum_univ _ fun e =>
        IsReal.ite ((IsReal.sum_univ _ fun k => (hh (g e) k).mul (hW k f)).mul (hw e)) IsReal.zero).add
      ((IsReal.sum_univ _ fun k => (hh i k).mul (hW k f)).mul (hsn i)))

end Ext

/-- Adding a real bias to a real number and clamping below at zero gives a real number. -/
theorem isReal_max_add_zero {X b : EReal} (hX : IsReal X) (hb : IsReal b) : IsReal (max (X + b) 0) :=
  (hX.add hb).max IsReal.zero

end Cert.Lib
-- ==== Proof.Spec.lean ====
/-
  THE CRITIC'S VALUE, AND THE TWO WAYS IT IS COMPUTED.

  For a parameter matrix P (65 × 64 reals) and one input X (4 reals) the critic's value is

      v(P, X) = Σ_{j < 64} max(Σ_{f < 4} P(j, f) · X(f) + P(j, 4), 0) · P(64, j) + P(0, 8):

  a hidden layer of 64 rectified units (weights P(j, 0..3), bias P(j, 4)) and a linear read-out (weights P(64, j), bias
  P(0, 8)).

  One program evaluates it with the input padded to eight entries (X, 1, 0, 0, 0), so that the bias is the fifth term
  of an eight-term product with P(j, 0..7) and the stray entries P(j, 5..7) meet zeros; it adds the read-out bias at
  the end.

  The other packs 32 inputs to a row and multiplies by a block-diagonal expansion of the weights: the product for
  sub-batch b sums, over all 32 sub-batches b' and 4 features, P(j, f) · [b = b'] · X(b', f), which is the inner
  product with input b alone; and it carries the read-out bias as a 65th unit with zero weights, bias 1 and read-out
  weight P(0, 8), whose term is max(0 + 1, 0) · P(0, 8).

  Both are v(P, X) when every number is real; here they are stated on the extended reals for families of reals.
-/
import proofs.«114560_g2000104039907715_pallasbulk_1158_2_alg».proof.Proof.LibGcnAlgebra
import Mathlib.Data.EReal.Operations
import Mathlib.Algebra.BigOperators.Fin
import Mathlib.Tactic.Ring
import Mathlib.Tactic.NormNum

noncomputable section

open scoped BigOperators

namespace Cert.Critic

open Cert.Lib

/-- The critic's value at one input. -/
def value (P : Fin 65 → Fin 64 → ℝ) (X : Fin 4 → ℝ) : ℝ :=
  (∑ j : Fin 64, max ((∑ f : Fin 4, P j.castSucc (Fin.castLE (by decide) f) * X f) + P j.castSucc 4) 0 * P (Fin.last 64) j) + P 0 8

theorem coe_max' (a b : ℝ) : ((max a b : ℝ) : EReal) = max (a : EReal) (b : EReal) :=
  EReal.coe_strictMono.monotone.map_max

/-- The padded form: eight-term products, the read-out bias added last. -/
theorem padded_value (P : Fin 65 → Fin 64 → ℝ) (X : Fin 4 → ℝ) :
    (∑ j : Fin 64, (P (Fin.last 64) j : EReal) *
        max ((P j.castSucc 0 : EReal) * (X 0 : EReal) + (P j.castSucc 1 : EReal) * (X 1 : EReal) + (P j.castSucc 2 : EReal) * (X 2 : EReal)
          + (P j.castSucc 3 : EReal) * (X 3 : EReal) + (P j.castSucc 4 : EReal) * 1 + (P j.castSucc 5 : EReal) * 0
          + (P j.castSucc 6 : EReal) * 0 + (P j.castSucc 7 : EReal) * 0) 0)
      + (P 0 8 : EReal) = ((value P X : ℝ) : EReal) := by
  have h1 : (1 : EReal) = ((1 : ℝ) : EReal) := rfl
  have h0 : (0 : EReal) = ((0 : ℝ) : EReal) := rfl
  simp only [h1, h0, ← EReal.coe_mul, ← EReal.coe_add, ← coe_max', ← coe_finset_sum]
  congr 1
  unfold value
  congr 1
  refine Finset.sum_congr rfl fun j _ => ?_
  rw [Fin.sum_univ_four, mul_comm]
  congr 2
  show _ = P j.castSucc 0 * X 0 + P j.castSucc 1 * X 1 + P j.castSucc 2 * X 2 + P j.castSucc 3 * X 3 + P j.castSucc 4
  ring

/-- The packed form: block-diagonal products over 32 sub-batches, the read-out bias as a 65th unit. -/
theorem packed_value (P : Fin 65 → Fin 64 → ℝ) (X : Fin 32 → Fin 4 → ℝ) (b : Fin 32) :
    (∑ j : Fin 64, max ((∑ b' : Fin 32, ∑ f : Fin 4,
          ((P j.castSucc (Fin.castLE (by decide) f) : EReal) * (if b = b' then 1 else 0)) * (X b' f : EReal)) + (P j.castSucc 4 : EReal)) 0
          * (P (Fin.last 64) j : EReal))
      + max ((∑ b' : Fin 32, ∑ f : Fin 4, ((0 : EReal) * (if b = b' then 1 else 0)) * (X b' f : EReal)) + 1) 0 * (P 0 8 : EReal)
      = ((value P (X b) : ℝ) : EReal) := by
  have h1 : (1 : EReal) = ((1 : ℝ) : EReal) := rfl
  have h0 : (0 : EReal) = ((0 : ℝ) : EReal) := rfl
  have hδ : ∀ b' : Fin 32, (if b = b' then (1 : EReal) else 0) = (((if b = b' then 1 else 0 : ℝ)) : EReal) := by
    intro b'; split <;> rfl
  simp only [hδ]
  simp only [h1, h0, ← EReal.coe_mul, ← EReal.coe_add, ← coe_max', ← coe_finset_sum]
  congr 1
  unfold value
  have hin : ∀ g : Fin 4 → ℝ, (∑ b' : Fin 32, ∑ f : Fin 4, g f * (if b = b' then 1 else 0) * X b' f) = ∑ f : Fin 4, g f * X b f := by
    intro g
    rw [Finset.sum_eq_single b]
    · simp
    · intro b' _ hne
      simp [Ne.symm hne]
    · simp
  rw [hin (fun _ => 0)]
  congr 1
  · refine Finset.sum_congr rfl fun j _ => ?_
    rw [hin (fun f => P j.castSucc (Fin.castLE (by decide) f))]
  · simp

end Cert.Critic

end
-- ==== Proof.Result.lean ====
/-
  THE COMMON RESULT.

  Both programs end with a B × 1 column whose entry (n, 0) is the critic's value at input n: the value of the real
  parameter matrix and of the four real features x(n, 0..3).
-/
import proofs.«114560_g2000104039907715_pallasbulk_1158_2_alg».proof.Proof.Spec
import Idealize.ShloMosaic.Lib.ValueIdx

noncomputable section

namespace Cert.Critic

open Idealize.ShloMosaic Idealize.ShloMosaic.ValueIdx

/-- The critic's value at input n, for extended-real arrays read through their real parts. -/
def gAt (p : (⟨2, ![65, 64]⟩ : Shape).Idx → EReal) (x : (⟨2, ![2097152, 4]⟩ : Shape).Idx → EReal) (n : Fin 2097152) : EReal :=
  ((value (fun a c => (p (ix2 a c)).toReal) (fun f => (x (ix2 n f)).toReal) : ℝ) : EReal)

/-- The column of values. -/
def G (p : (⟨2, ![65, 64]⟩ : Shape).Idx → EReal) (x : (⟨2, ![2097152, 4]⟩ : Shape).Idx → EReal) :
    (⟨2, ![2097152, 1]⟩ : Shape).Idx → EReal :=
  fun i => gAt p x (i 0)

end Cert.Critic

end
-- ==== Proof.KernelBridge.lean ====
/-
  THE KERNEL'S ARRAY IS THE CRITIC'S VALUE.

  At (b, r) the kernel's array holds a sum over 65 units of rectified 128-term products with the expanded weights.
  Reading the tables entry by entry, the 128 terms are the 32 × 4 terms P(j, f) · [b = b'] · x(32·r + b', f), the 65th
  unit has zero weights, bias one and read-out weight P(0, 8); for real inputs that is the critic's value at the input
  32·r + b.
-/
import proofs.«114560_g2000104039907715_pallasbulk_1158_2_alg».proof.Proof.KernelValue
import proofs.«114560_g2000104039907715_pallasbulk_1158_2_alg».proof.Proof.Spec
import proofs.«114560_g2000104039907715_pallasbulk_1158_2_alg».proof.Proof.Result
import Mathlib.Logic.Equiv.Fin.Basic
import Mathlib.Algebra.BigOperators.Fin

noncomputable section

open scoped BigOperators

namespace Cert.Critic.KernelBridge

open Idealize.ShloMosaic Idealize.ShloMosaic.ValueIdx
open Cert.KernelIdeal Cert.Critic Cert.Critic.KernelOperands Cert.Critic.KernelValue Cert.Lib

/-- A sum over the 128 columns, taken sub-batch by sub-batch and feature by feature. -/
theorem sum_col (g : Fin 128 → EReal) : ∑ k : Fin 128, g k = ∑ b' : Fin 32, ∑ f : Fin 4, g (col b' f) := by
  rw [← Fintype.sum_prod_type' (f := fun (b' : Fin 32) (f : Fin 4) => g (col b' f))]
  exact (Fintype.sum_equiv (finProdFinEquiv : Fin 32 × Fin 4 ≃ Fin 128) (fun x => g (col x.1 x.2)) g
    (fun x => congrArg g (Fin.ext (by
      show 4 * x.1.val + x.2.val = x.2.val + 4 * x.1.val
      omega)))).symm

/-- The word of 1.0 denotes one. -/
theorem ofBits_one : Ideal.ofBits .f32 0x3F800000#32 = (1 : EReal) := by
  simp [Ideal.ofBits, Ideal.ieee]
  first
    | (rw [← EReal.coe_mul]; norm_num)
    | (norm_cast; norm_num)
    | (have h : (8388608 : ℝ) * ((2 : ℝ) ^ 23)⁻¹ = 1 := by norm_num
       exact_mod_cast h)

/-- The kernel's array at (b, r) is the critic's value at input 32·r + b, for real parameters and inputs. -/
theorem outAt_eq (p : FVec Ideal S65x64 .f32) (x : FVec Ideal S2097152x4 .f32) (hp : ∀ i, IsReal (p i)) (hx : ∀ i, IsReal (x i))
    (b : Fin 32) (r : Fin 65536) :
    outAt p x b r = ((value (fun a c => (p (ix2 a c)).toReal) (fun f => (x (ix2 (elem r b) f)).toReal) : ℝ) : EReal) := by
  choose P hP using fun (a : Fin 65) (c : Fin 64) => hp (ix2 a c)
  choose X hX using fun (b' : Fin 32) (f : Fin 4) => hx (ix2 (elem r b') f)
  have hPt : (fun a c => (p (ix2 a c)).toReal) = P := by
    funext a c
    rw [hP]
    exact EReal.toReal_coe _
  have hXt : (fun f => (x (ix2 (elem r b) f)).toReal) = X b := by
    funext f
    rw [hX]
    exact EReal.toReal_coe _
  rw [hPt, hXt]
  unfold outAt
  rw [Fin.sum_univ_castSucc]
  simp only [sum_col, m1t_apply, xr_apply, aux_bias, aux_out, eye_apply, w1e_main, w1e_last, b1e_main, b1e_last, w2e_main,
    w2e_last, hP, hX, Ideal.ofBits_zero_f32, ofBits_one]
  exact packed_value P X b

/-- The kernel program's result is the column of values, for real parameters and inputs. -/
theorem result_eq (p : FVec Ideal S65x64 .f32) (x : FVec Ideal S2097152x4 .f32) (hp : ∀ i, IsReal (p i)) (hx : ∀ i, IsReal (x i)) :
    result p x = G p x := by
  funext i
  obtain ⟨n, u, rfl⟩ : ∃ (n : Fin 2097152) (u : Fin 1), i = ix2 n u := ⟨i 0, i 1, eq_ix2 i⟩
  have hn : n.val < 2097152 := n.isLt
  have hu : u.val < 1 := u.isLt
  obtain ⟨r, b, rfl⟩ : ∃ (r : Fin 65536) (b : Fin 32), n = elem r b :=
    ⟨⟨n.val / 32, by omega⟩, ⟨n.val % 32, by omega⟩, Fin.ext (by
      show n.val = 32 * (n.val / 32) + n.val % 32
      omega)⟩
  unfold result
  refine (shapeCast_apply _ _ (ix2 (elem r b) u) (ix2 r b) ?_).trans ?_
  · rw [Shape.rowMajor_val_two, Shape.rowMajor_val_two]
    show r.val * 32 + b.val = (32 * r.val + b.val) * 1 + u.val
    omega
  refine (transpose_apply _ _ _ (ix2 r b) (ix2 b r) (fun a => match a with
    | ⟨0, _⟩ => rfl
    | ⟨1, _⟩ => rfl)).trans ?_
  exact outAt_eq p x hp hx b r

end Cert.Critic.KernelBridge

end
-- ==== Proof.LibScatterSet.lean ====
/-
  A SCATTER THAT OVERWRITES, READ AT AN ELEMENT.

  A scatter whose body returns the update runs over the update elements in row-major order; each element that lands
  inside the operand overwrites the operand's element at its landing index, and one that lands outside is dropped. The
  result is a left fold of that step over the list of update elements.

  Read at one element i of the operand the fold is simple. If no update element lands at i, the result holds there
  what the operand held. If some update element n₀ lands at i and every update element that lands at i is n₀, the
  result holds there the update's value at n₀: later steps that land elsewhere leave i alone, and the steps before
  n₀ do not matter. Both statements are first proved for the fold over any list, with the landing index any
  partial function of the list's elements, and then read for the scatter.
-/
import Idealize.ShloMosaic.PureOps.ShapeOps

noncomputable section

namespace Cert.Lib

open Idealize.ShloMosaic

section Fold

variable {ι σ α : Type} [DecidableEq σ]

/-- One step of a scatter: the element n, when it lands at some index i, replaces the array's element at i by the
    body's value on the old element and the update's; when it lands nowhere the array is unchanged. -/
def scatterStep (g : ι → Option σ) (f : α → α → α) (v : ι → α) (r : σ → α) (n : ι) : σ → α :=
  match g n with
  | some i => fun i' => if i' = i then f (r i) (v n) else r i'
  | none => r

/-- A step that does not land at i leaves the element at i alone. -/
theorem scatterStep_of_ne (g : ι → Option σ) (f : α → α → α) (v : ι → α) (r : σ → α) (n : ι) (i : σ)
    (h : g n ≠ some i) : scatterStep g f v r n i = r i := by
  unfold scatterStep
  cases hk : g n with
  | none => rfl
  | some k =>
    show (if i = k then f (r k) (v n) else r i) = r i
    rw [if_neg]
    intro e
    exact h (by rw [hk, e])

/-- A step that lands at i puts there the body's value on the old element and the update's. -/
theorem scatterStep_of_eq (g : ι → Option σ) (f : α → α → α) (v : ι → α) (r : σ → α) (n : ι) (i : σ)
    (h : g n = some i) : scatterStep g f v r n i = f (r i) (v n) := by
  unfold scatterStep
  rw [h]
  show (if i = i then f (r i) (v n) else r i) = f (r i) (v n)
  rw [if_pos rfl]

/-- If no element of the list lands at i, the fold leaves the element at i alone. -/
theorem foldl_scatterStep_of_forall_ne (g : ι → Option σ) (f : α → α → α) (v : ι → α) (i : σ) :
    ∀ (l : List ι) (r : σ → α), (∀ n ∈ l, g n ≠ some i) → l.foldl (scatterStep g f v) r i = r i
  | [], _, _ => rfl
  | a :: l, r, h => by
    rw [List.foldl_cons, foldl_scatterStep_of_forall_ne g f v i l _ (fun n hn => h n (List.mem_cons_of_mem _ hn)),
      scatterStep_of_ne g f v r a i (h a List.mem_cons_self)]

/-- With the body that returns the update: if n₀ is in the list and lands at i, and every element of the list that
    lands at i is n₀, the fold's element at i is the update's value at n₀. -/
theorem foldl_scatterSet_of_unique (g : ι → Option σ) (v : ι → α) (i : σ) (n₀ : ι) (hg : g n₀ = some i) :
    ∀ (l : List ι) (r : σ → α), n₀ ∈ l → (∀ n ∈ l, g n = some i → n = n₀) →
      l.foldl (scatterStep g (fun _ b => b) v) r i = v n₀
  | [], _, h, _ => absurd h List.not_mem_nil
  | a :: l, r, hmem, huniq => by
    rw [List.foldl_cons]
    by_cases hl : n₀ ∈ l
    · exact foldl_scatterSet_of_unique g v i n₀ hg l _ hl (fun n hn => huniq n (List.mem_cons_of_mem _ hn))
    · have ha : a = n₀ := by
        rcases List.mem_cons.mp hmem with h | h
        · exact h.symm
        · exact absurd h hl
      rw [foldl_scatterStep_of_forall_ne g _ v i l _ (fun n hn e => hl (huniq n (List.mem_cons_of_mem _ hn) e ▸ hn)),
        ha, scatterStep_of_eq g _ v r n₀ i hg]

end Fold

section Scatter

variable {α : Type} {s si u : Shape} {w : Nat}

/-- A scatter is the fold of its step over the update elements in row-major order. -/
theorem scatter_eq_foldl (d : ScatterDims s si u) (f : α → α → α) (x : s.Idx → α) (idx : IVec si w) (upd : u.Idx → α) :
    Host.scatter d f x idx upd
      = (List.finRange u.numel).foldl (scatterStep (fun n => d.resultIdx? (u.rowMajor.symm n) idx) f
          (fun n => upd (u.rowMajor.symm n))) x := by
  unfold Host.scatter
  congr 1
  funext r n
  unfold scatterStep
  beta_reduce
  generalize d.resultIdx? (u.rowMajor.symm n) idx = o
  cases o with
  | none => rfl
  | some i => rfl

/-- AN OVERWRITING SCATTER AT AN ELEMENT NO UPDATE REACHES: the operand's element. -/
theorem scatter_apply_of_forall_ne (d : ScatterDims s si u) (f : α → α → α) (x : s.Idx → α) (idx : IVec si w)
    (upd : u.Idx → α) (i : s.Idx) (h : ∀ j, d.resultIdx? j idx ≠ some i) : Host.scatter d f x idx upd i = x i := by
  rw [scatter_eq_foldl]
  exact foldl_scatterStep_of_forall_ne _ f _ i _ x (fun n _ => h _)

/-- AN OVERWRITING SCATTER AT AN ELEMENT EXACTLY ONE UPDATE REACHES: when update element j₀ lands at i and every
    update element that lands at i is j₀, the result's element at i is the update's at j₀. -/
theorem scatter_set_apply (d : ScatterDims s si u) (x : s.Idx → α) (idx : IVec si w) (upd : u.Idx → α) (j₀ : u.Idx)
    (i : s.Idx) (h₀ : d.resultIdx? j₀ idx = some i) (huniq : ∀ j, d.resultIdx? j idx = some i → j = j₀) :
    Host.scatter d (fun _ b => b) x idx upd i = upd j₀ := by
  rw [scatter_eq_foldl]
  have key := foldl_scatterSet_of_unique (fun n => d.resultIdx? (u.rowMajor.symm n) idx) (fun n => upd (u.rowMajor.symm n)) i
    (u.rowMajor j₀) (by rw [Equiv.symm_apply_apply]; exact h₀) (List.finRange u.numel) x (List.mem_finRange _)
    (fun n _ e => by rw [← huniq _ e, Equiv.apply_symm_apply])
  rw [key, Equiv.symm_apply_apply]

end Scatter

end Cert.Lib

end
-- ==== Proof.ReferenceOperands.lean ====
/-
  THE REFERENCE KERNEL'S INPUT TABLE, READ AT AN ENTRY.

  The reference launches its kernel on an 8 × B table built from x (B × 4): a table of zeros, whose rows 0..3 are
  overwritten by the transpose of x and whose row 4 is overwritten by ones. So column n holds
  (x(n, 0), x(n, 1), x(n, 2), x(n, 3), 1, 0, 0, 0).

  Both overwrites are scatters with one scatter index (0, then 4) whose body keeps the update: the first lands update
  element (k, n) at (k, n), the second lands update element n at (4, n), and nothing is dropped.
-/
import proofs.«114560_g2000104039907715_pallasbulk_1158_2_alg».proof.Proof.Gen.ReferenceIdeal
import proofs.«114560_g2000104039907715_pallasbulk_1158_2_alg».proof.Proof.LibScatterSet
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.Critic.ReferenceOperands

open Idealize.ShloMosaic Idealize.ShloMosaic.ValueIdx Cert.ReferenceIdeal Cert.Lib

/-! ## The terms -/

/-- The one scatter index, as a one-entry index array. -/
def idxAt (v : BitVec 32) : IVec S1 32 := broadcastInDim S1 ![] Facts₀.bcast_S_S1 (constantI S_ 32 v)

/-- Zeros with the transpose of x written over rows 0..3. -/
def xt0 (x : FVec Ideal S2097152x4 .f32) : FVec Ideal S8x2097152 .f32 :=
  Host.scatter scatter_S8x2097152_S1_S4x2097152_01_n_0_0 (fun _ b => b)
    (broadcastInDim S8x2097152 ![] Facts₀.bcast_S_S8x2097152 (constant (F := Ideal) S_ .f32 0x00000000#32)) (idxAt 0#32)
    (transpose S4x2097152 [1, 0] x Facts₀.transposes_S2097152x4_S4x2097152_1_0)

/-- … and ones written over row 4. -/
def xt (x : FVec Ideal S2097152x4 .f32) : FVec Ideal S8x2097152 .f32 :=
  Host.scatter scatter_S8x2097152_S1_S2097152_0_0_0_0 (fun _ b => b) (xt0 x) (idxAt 4#32)
    (broadcastInDim S2097152 ![] Facts₀.bcast_S_S2097152 (constant (F := Ideal) S_ .f32 0x3F800000#32))

/-! ## Where the updates land -/

/-- The first overwrite lands update element (k, n) at (k, n). -/
theorem lands_block (j : S4x2097152.Idx) :
    scatter_S8x2097152_S1_S4x2097152_01_n_0_0.resultIdx? j (idxAt 0#32)
      = some (ix2 (Fin.castLE (by decide) (j 0) : Fin 8) (j 1)) := by
  have h0 : (j 0).val < 4 := (j 0).isLt
  have h1 : (j 1).val < 2097152 := (j 1).isLt
  have h : ∀ a, 0 ≤ scatter_S8x2097152_S1_S4x2097152_01_n_0_0.start j (idxAt 0#32) a + scatter_S8x2097152_S1_S4x2097152_01_n_0_0.window j a
      ∧ scatter_S8x2097152_S1_S4x2097152_01_n_0_0.start j (idxAt 0#32) a + scatter_S8x2097152_S1_S4x2097152_01_n_0_0.window j a < S8x2097152.size a := by
    intro a
    match a with
    | ⟨0, _⟩ =>
      show 0 ≤ (0 : Int) + ((j 0).val : Int) ∧ (0 : Int) + ((j 0).val : Int) < ((8 : Nat) : Int)
      omega
    | ⟨1, _⟩ =>
      show 0 ≤ (0 : Int) + ((j 1).val : Int) ∧ (0 : Int) + ((j 1).val : Int) < ((2097152 : Nat) : Int)
      omega
  unfold ScatterDims.resultIdx?
  rw [dif_pos h]
  refine congrArg some (funext fun a => Fin.ext ?_)
  match a with
  | ⟨0, _⟩ =>
    show ((0 : Int) + ((j 0).val : Int)).toNat = (j 0).val
    omega
  | ⟨1, _⟩ =>
    show ((0 : Int) + ((j 1).val : Int)).toNat = (j 1).val
    omega

/-- The second overwrite lands update element n at (4, n). -/
theorem lands_row (j : S2097152.Idx) :
    scatter_S8x2097152_S1_S2097152_0_0_0_0.resultIdx? j (idxAt 4#32) = some (ix2 (4 : Fin 8) (j 0)) := by
  have h1 : (j 0).val < 2097152 := (j 0).isLt
  have h : ∀ a, 0 ≤ scatter_S8x2097152_S1_S2097152_0_0_0_0.start j (idxAt 4#32) a + scatter_S8x2097152_S1_S2097152_0_0_0_0.window j a
      ∧ scatter_S8x2097152_S1_S2097152_0_0_0_0.start j (idxAt 4#32) a + scatter_S8x2097152_S1_S2097152_0_0_0_0.window j a < S8x2097152.size a := by
    intro a
    match a with
    | ⟨0, _⟩ =>
      show 0 ≤ (4 : Int) + ((0 : Nat) : Int) ∧ (4 : Int) + ((0 : Nat) : Int) < ((8 : Nat) : Int)
      omega
    | ⟨1, _⟩ =>
      show 0 ≤ (0 : Int) + ((j 0).val : Int) ∧ (0 : Int) + ((j 0).val : Int) < ((2097152 : Nat) : Int)
      omega
  unfold ScatterDims.resultIdx?
  rw [dif_pos h]
  refine congrArg some (funext fun a => Fin.ext ?_)
  match a with
  | ⟨0, _⟩ =>
    show ((4 : Int) + ((0 : Nat) : Int)).toNat = 4
    omega
  | ⟨1, _⟩ =>
    show ((0 : Int) + ((j 0).val : Int)).toNat = (j 0).val
    omega

/-! ## The table, entry by entry -/

/-- Rows 0..3: the features. -/
theorem xt_feature (x : FVec Ideal S2097152x4 .f32) (k : Fin 4) (n : Fin 2097152) :
    xt x (ix2 (Fin.castLE (by decide) k : Fin 8) n) = x (ix2 n k) := by
  unfold xt
  rw [scatter_apply_of_forall_ne _ _ _ _ _ _ (fun j => by
    rw [lands_row]
    intro e
    have e0 := congrArg Fin.val (congrFun (Option.some.inj e) (0 : Fin 2))
    have hk : k.val < 4 := k.isLt
    change (4 : Nat) = k.val at e0
    omega)]
  unfold xt0
  refine (scatter_set_apply _ _ _ _ (ix2 k n) (ix2 (Fin.castLE (by decide) k : Fin 8) n) (lands_block _) (fun j hj => by
    rw [lands_block] at hj
    have e := Option.some.inj hj
    have e0 := congrArg Fin.val (congrFun e (0 : Fin 2))
    have e1 := congrFun e (1 : Fin 2)
    change (j 0).val = k.val at e0
    change j 1 = n at e1
    rw [eq_ix2 j]
    exact congrArg₂ (fun a b => ix2 a b) (Fin.ext e0) e1)).trans ?_
  exact transpose_apply _ x _ (ix2 k n) (ix2 n k) fun b => match b with
    | ⟨0, _⟩ => rfl
    | ⟨1, _⟩ => rfl

/-- Row 4: ones. -/
theorem xt_one (x : FVec Ideal S2097152x4 .f32) (n : Fin 2097152) :
    xt x (ix2 (4 : Fin 8) n) = Ideal.ofBits .f32 0x3F800000#32 := by
  unfold xt
  refine (scatter_set_apply _ _ _ _ (ix1 n) (ix2 (4 : Fin 8) n) (lands_row _) (fun j hj => by
    rw [lands_row] at hj
    have e1 := congrFun (Option.some.inj hj) (1 : Fin 2)
    change j 0 = n at e1
    rw [eq_ix1 j]
    exact congrArg (fun a => ix1 a) e1)).trans ?_
  exact (broadcastInDim_scalar_apply _ _ _).trans rfl

/-- Rows 5..7: zeros. -/
theorem xt_zero (x : FVec Ideal S2097152x4 .f32) (k : Fin 8) (hk : 4 < k.val) (n : Fin 2097152) :
    xt x (ix2 k n) = Ideal.ofBits .f32 0x00000000#32 := by
  unfold xt
  rw [scatter_apply_of_forall_ne _ _ _ _ _ _ (fun j => by
    rw [lands_row]
    intro e
    have e0 := congrArg Fin.val (congrFun (Option.some.inj e) (0 : Fin 2))
    change (4 : Nat) = k.val at e0
    omega)]
  unfold xt0
  rw [scatter_apply_of_forall_ne _ _ _ _ _ _ (fun j => by
    rw [lands_block]
    intro e
    have e0 := congrArg Fin.val (congrFun (Option.some.inj e) (0 : Fin 2))
    have h0 : (j 0).val < 4 := (j 0).isLt
    change (j 0).val = k.val at e0
    omega)]
  exact (broadcastInDim_scalar_apply _ _ _).trans rfl

end Cert.Critic.ReferenceOperands

end
-- ==== Proof.ReferenceHost.lean ====
/-
  WHAT THE REFERENCE KERNEL IS LAUNCHED ON.

  Before the launch the reference builds the padded, transposed input table from x; the kernel's first window reads
  that table of the argument's contents, its second window the parameter matrix itself.
-/
import proofs.«114560_g2000104039907715_pallasbulk_1158_2_alg».proof.Proof.Gen.ReferenceIdeal.Frame
import proofs.«114560_g2000104039907715_pallasbulk_1158_2_alg».proof.Proof.ReferenceOperands
import Idealize.ShloMosaic.Lib.StableHlo.Run

noncomputable section

namespace Cert.Critic.ReferenceHost

open Idealize.ShloMosaic Idealize.ShloMosaic.TcCoe Idealize.SL.Sem Idealize.ShloMosaic.StableHlo
open Cert.ReferenceIdeal Cert.Critic.ReferenceOperands

variable (m : (ℓ : Loc nD τ sig) → Buf (Elt Ideal) ℓ) (c : Dev nD)

set_option maxHeartbeats 2000000 in
/-- The padded, transposed input table, as the kernel finds it. -/
theorem V_xt : (Gen.V m c main_v6 : S8x2097152.Idx → EReal) = xt (m ((c : Thread nD τ).loc main_arg0)) := by
  dsimp only [Gen.V, Gen.V0]
  simp only [Gen.hostOps0, List.flatten_cons, List.flatten_nil, List.append_nil, List.cons_append, List.nil_append]
  after_results
  rfl

end Cert.Critic.ReferenceHost

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«114560_g2000104039907715_pallasbulk_1158_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.ReferenceBody.lean ====
/-
  THE REFERENCE KERNEL'S BODY AT AN ENTRY.

  At one grid point the body holds a block Xt of 4096 columns of the padded, transposed input (8 × 4096) and the
  parameter matrix. It multiplies the 64 × 8 corner of the parameters by Xt, rectifies, multiplies the read-out row
  (row 64 of the parameters) by the result and adds the entry (0, 8). So its entry (0, q) is

      Σ_{j < 64} P(64, j) · max(Σ_{k < 8} P(j, k) · Xt(k, q), 0) + P(0, 8).
-/
import proofs.«114560_g2000104039907715_pallasbulk_1158_2_alg».proof.Proof.Gen.ReferenceIdeal.Skeleton
import proofs.«114560_g2000104039907715_pallasbulk_1158_2_alg».proof.Proof.LibRowReads
import proofs.«114560_g2000104039907715_pallasbulk_1158_2_alg».proof.Proof.LibColBroadcast
import Idealize.ShloMosaic.PureOps.Ideal.Laws
import Idealize.ShloMosaic.Lib.ValueIdx
import Idealize.ShloMosaic.Lib.Pipeline.Value

noncomputable section

open scoped BigOperators

namespace Cert.Critic.ReferenceBody

open Idealize.ShloMosaic Idealize.ShloMosaic.ValueIdx Cert.ReferenceIdeal Cert.Lib

/-- The body's result at (0, q), from the blocks it loads: the 8 × 4096 input block, the 64 × 8 corner, the read-out
    row and the read-out bias. -/
theorem payload_apply (v0 : FVec Ideal S8x4096 .f32) (v2 : FVec Ideal S64x8 .f32) (v3 : FVec Ideal S1x64 .f32)
    (v4 : FVec Ideal S1x1 .f32) (q : Fin 4096) :
    Gen.k0_pay1 v0 v2 v3 v4 (ix2 (0 : Fin 1) q)
      = (∑ j : Fin 64, v3 (ix2 (0 : Fin 1) j) * max (∑ k : Fin 8, v2 (ix2 j k) * v0 (ix2 k q)) (Ideal.ofBits .f32 0x00000000#32))
        + v4 (ix2 (0 : Fin 1) (0 : Fin 1)) := by
  unfold Gen.k0_pay1
  rw [addf_apply, matmul_zero_at _ rfl rfl rfl rfl rfl rfl, broadcastTo_a1_ab_apply]
  refine congrArg₂ (· + ·) (Finset.sum_congr rfl fun j _ => ?_) rfl
  rw [maximumf_apply, matmul_zero_at _ rfl rfl rfl rfl rfl rfl, shapeCast_self]
  rfl

end Cert.Critic.ReferenceBody

end
-- ==== Proof.ReferenceValue.lean ====
/-
  THE REFERENCE PROGRAM'S RESULT.

  Grid point t of the reference kernel reads columns 4096·t … 4096·t + 4095 of the padded, transposed input table and
  the parameter matrix, and writes columns 4096·t … of a 1 × B row; the 512 blocks tile it. So after the launch the row
  holds, at (0, n), the body's formula on column n of the table. The program then re-lays the row as a column.
-/
import proofs.«114560_g2000104039907715_pallasbulk_1158_2_alg».proof.Proof.Gen.ReferenceIdeal.Frame
import proofs.«114560_g2000104039907715_pallasbulk_1158_2_alg».proof.Proof.ReferenceHost
import proofs.«114560_g2000104039907715_pallasbulk_1158_2_alg».proof.Proof.ReferenceBody
import Idealize.ShloMosaic.Lib.Pipeline.Value
import Idealize.ShloMosaic.Lib.StableHlo.Run

set_option maxRecDepth 16384

noncomputable section

open scoped BigOperators

namespace Cert.Critic.ReferenceValue

open Idealize.ShloMosaic Idealize.ShloMosaic.TcCoe Idealize.SL.Sem Idealize.ShloMosaic.ValueIdx Idealize.ShloMosaic.StableHlo
open Cert.ReferenceIdeal
open Cert.Critic.ReferenceOperands Cert.Critic.ReferenceBody Cert.Critic.ReferenceHost

variable (m : (ℓ : Loc nD τ sig) → Buf (Elt Ideal) ℓ) (ρ : Dev nD → PrngReg)

-- the table is only ever read through its entry lemmas: its definition, a fold over every update element, stays closed
attribute [local irreducible] xt

/-- The reference kernel's row at column n, from the parameter matrix p and the input x. -/
def refAt (p : FVec Ideal S65x64 .f32) (x : FVec Ideal S2097152x4 .f32) (n : Fin 2097152) : EReal :=
  (∑ j : Fin 64, p (ix2 (Fin.last 64) j)
      * max (∑ k : Fin 8, p (ix2 j.castSucc (Fin.castLE (by decide) k : Fin 64)) * xt x (ix2 k n)) (Ideal.ofBits .f32 0x00000000#32))
    + p (ix2 (0 : Fin 65) (8 : Fin 64))

/-- The reference kernel's row. -/
def refArr (p : FVec Ideal S65x64 .f32) (x : FVec Ideal S2097152x4 .f32) : S1x2097152.Idx → EReal :=
  fun i => refAt p x (i 1)

theorem hz : (![0, 0] : Fin 2 → Nat) = fun _ => 0 := funext fun a => by fin_cases a <;> rfl

/-- Column 4096·t + q of the row: column q of grid point t's block. -/
abbrev gcol (t : Fin cfg0.N) (q : Fin 4096) : Fin 2097152 :=
  ⟨4096 * t.val + q.val, by have h := t.isLt; have hN : cfg0.N = 512 := Gen.N_0; have := q.isLt; omega⟩

/-- The block each window reads or writes at grid point t: the t-th column block of the table, the parameters whole,
    the t-th column block of the row. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-! The blocks are first read off an arbitrary array in place of the table or the parameters, so that what the host
    operations computed is never opened here. -/

/-- Grid point t's block of an 8 × B array is its columns 4096·t …. -/
theorem read_tbl (A : S8x2097152.Idx → EReal) (t : Fin cfg0.N) (k : Fin 8) (q : Fin 4096) :
    ((cfg0.win 0).blk t).view.read (Elt Ideal) A (ix2 k q) = A (ix2 k (gcol t q)) := by
  obtain ⟨e0, e1, -⟩ := idx_facts t
  show A (((cfg0.win 0).blk t).view.emb (ix2 k q)) = _
  refine congrArg A (funext fun a => Fin.ext ?_)
  match a with
  | ⟨0, _⟩ =>
    show win0_0.index t (0 : Fin 2) * 8 + 1 * k.val = k.val
    omega
  | ⟨1, _⟩ =>
    show win0_0.index t (1 : Fin 2) * 4096 + 1 * q.val = 4096 * t.val + q.val
    omega

/-- The 64 × 8 corner of grid point t's block of a 65 × 64 array is the array's corner. -/
theorem read_corner (A : S65x64.Idx → EReal) (t : Fin cfg0.N) (j : Fin 64) (k : Fin 8) :
    View.ld (((cfg0.win 1).blk t).view.read (Elt Ideal) A) Gen.r0_1 (ix2 j k)
      = A (ix2 j.castSucc (Fin.castLE (by decide) k : Fin 64)) := by
  obtain ⟨-, -, e2, e3, -⟩ := idx_facts t
  show A (((cfg0.win 1).blk t).view.emb (Gen.r0_1.idx (ix2 j k))) = _
  refine congrArg A (funext fun a => Fin.ext ?_)
  match a with
  | ⟨0, _⟩ =>
    show win0_1.index t (0 : Fin 2) * 65 + 1 * (0 + 1 * j.val) = j.val
    omega
  | ⟨1, _⟩ =>
    show win0_1.index t (1 : Fin 2) * 64 + 1 * (0 + 1 * k.val) = k.val
    omega

/-- Row 64 of grid point t's block of a 65 × 64 array is the array's row 64. -/
theorem read_readout (A : S65x64.Idx → EReal) (t : Fin cfg0.N) (j : Fin 64) :
    View.ld (((cfg0.win 1).blk t).view.read (Elt Ideal) A) Gen.r0_2 (ix2 (0 : Fin 1) j) = A (ix2 (Fin.last 64) j) := by
  obtain ⟨-, -, e2, e3, -⟩ := idx_facts t
  show A (((cfg0.win 1).blk t).view.emb (Gen.r0_2.idx (ix2 (0 : Fin 1) j))) = _
  refine congrArg A (funext fun a => Fin.ext ?_)
  match a with
  | ⟨0, _⟩ =>
    show win0_1.index t (0 : Fin 2) * 65 + 1 * (64 + 1 * 0) = 64
    omega
  | ⟨1, _⟩ =>
    show win0_1.index t (1 : Fin 2) * 64 + 1 * (0 + 1 * j.val) = j.val
    omega

/-- Entry (0, 8) of grid point t's block of a 65 × 64 array is the array's entry (0, 8). -/
theorem read_bias2 (A : S65x64.Idx → EReal) (t : Fin cfg0.N) :
    View.ld (((cfg0.win 1).blk t).view.read (Elt Ideal) A) Gen.r0_3 (ix2 (0 : Fin 1) (0 : Fin 1)) = A (ix2 (0 : Fin 65) (8 : Fin 64)) := by
  obtain ⟨-, -, e2, e3, -⟩ := idx_facts t
  show A (((cfg0.win 1).blk t).view.emb (Gen.r0_3.idx (ix2 (0 : Fin 1) (0 : Fin 1)))) = _
  refine congrArg A (funext fun a => Fin.ext ?_)
  match a with
  | ⟨0, _⟩ =>
    show win0_1.index t (0 : Fin 2) * 65 + 1 * (0 + 1 * 0) = 0
    omega
  | ⟨1, _⟩ =>
    show win0_1.index t (1 : Fin 2) * 64 + 1 * (8 + 1 * 0) = 8
    omega

/-- The table block at grid point t is columns 4096·t … of the table. -/
theorem blk_xt (c : Dev nD) (t : Fin cfg0.N) (k : Fin 8) (q : Fin 4096) :
    Gen.iblk m c 0 t (ix2 k q) = xt (m ((c : Thread nD τ).loc main_arg0)) (ix2 k (gcol t q)) := by
  unfold Gen.iblk
  exact (read_tbl (Gen.V m c (Pipeline.arrRef spec0 0)) t k q).trans (congrFun (V_xt m c) (ix2 k (gcol t q)))

/-- The parameters as the kernel finds them are the argument. -/
theorem V_p (c : Dev nD) : (Gen.V m c main_arg1 : S65x64.Idx → EReal) = m ((c : Thread nD τ).loc main_arg1) :=
  Gen.V_main_arg1 m c

/-- The 64 × 8 corner the body loads. -/
theorem blk_corner (c : Dev nD) (t : Fin cfg0.N) (j : Fin 64) (k : Fin 8) :
    View.ld (Gen.iblk m c 1 t) Gen.r0_1 (ix2 j k)
      = m ((c : Thread nD τ).loc main_arg1) (ix2 j.castSucc (Fin.castLE (by decide) k : Fin 64)) := by
  unfold Gen.iblk
  exact (read_corner (Gen.V m c (Pipeline.arrRef spec0 1)) t j k).trans (congrFun (V_p m c) _)

/-- The read-out row the body loads is row 64 of the parameters. -/
theorem blk_readout (c : Dev nD) (t : Fin cfg0.N) (j : Fin 64) :
    View.ld (Gen.iblk m c 1 t) Gen.r0_2 (ix2 (0 : Fin 1) j) = m ((c : Thread nD τ).loc main_arg1) (ix2 (Fin.last 64) j) := by
  unfold Gen.iblk
  exact (read_readout (Gen.V m c (Pipeline.arrRef spec0 1)) t j).trans (congrFun (V_p m c) _)

/-- The read-out bias the body loads is the parameters' entry (0, 8). -/
theorem blk_bias2 (c : Dev nD) (t : Fin cfg0.N) :
    View.ld (Gen.iblk m c 1 t) Gen.r0_3 (ix2 (0 : Fin 1) (0 : Fin 1)) = m ((c : Thread nD τ).loc main_arg1) (ix2 (0 : Fin 65) (8 : Fin 64)) := by
  unfold Gen.iblk
  exact (read_bias2 (Gen.V m c (Pipeline.arrRef spec0 1)) t).trans (congrFun (V_p m c) _)

/-- What grid point t writes back is its block of the row. -/
theorem flushed_eq (c : Dev nD) (t : Fin cfg0.N) :
    (Gen.dats m 0 c).flushed 2 t = ((cfg0.win 2).blk t).view.read (Elt Ideal)
      (refArr (m ((c : Thread nD τ).loc main_arg1)) (m ((c : Thread nD τ).loc main_arg0))) := by
  show (cfg0.win 2).cut (grid0.coords t) ((Gen.dats m 0 c).after 2 t) = _
  rw [Gen.after0_2]
  unfold Gen.out0_2
  rw [View.canon_unit_zero hz]
  simp only [View.ld_unit_zero (S := S8x4096) hz]
  funext y
  obtain ⟨u, q, rfl⟩ : ∃ (u : Fin 1) (q : Fin 4096), y = ix2 u q := ⟨y 0, y 1, eq_ix2 y⟩
  obtain rfl : u = 0 := Subsingleton.elim _ _
  refine (payload_apply (Gen.iblk m c 0 t) (View.ld (Gen.iblk m c 1 t) Gen.r0_1) (View.ld (Gen.iblk m c 1 t) Gen.r0_2)
    (View.ld (Gen.iblk m c 1 t) Gen.r0_3) q).trans ?_
  obtain ⟨-, -, -, -, e4, e5⟩ := idx_facts t
  have hemb : ((cfg0.win 2).blk t).view.emb (ix2 (0 : Fin 1) q) = ix2 (0 : Fin 1) (gcol t q) := by
    funext a
    apply Fin.ext
    match a with
    | ⟨0, _⟩ =>
      show win0_2.index t (0 : Fin 2) * 1 + 1 * 0 = 0
      omega
    | ⟨1, _⟩ =>
      show win0_2.index t (1 : Fin 2) * 4096 + 1 * q.val = 4096 * t.val + q.val
      omega
  show _ = refArr _ _ (((cfg0.win 2).blk t).view.emb (ix2 (0 : Fin 1) q))
  rw [hemb]
  show _ = refAt _ _ (gcol t q)
  unfold refAt
  exact congrArg₂ (· + ·)
    (Finset.sum_congr rfl fun j _ => congrArg₂ (· * ·) (blk_readout m c t j)
      (congrArg₂ max (Finset.sum_congr rfl fun k _ => congrArg₂ (· * ·) (blk_corner m c t j k) (blk_xt m c t k q)) rfl))
    (blk_bias2 m c t)

/-- An index of the row is in grid point t's block iff each coordinate is in the block's range. -/
theorem mem_blk (t : Fin cfg0.N) (i : S1x2097152.Idx) :
    i ∈ ((cfg0.win 2).blk t).view.set ↔ ∀ a : Fin 2, win0_2.index t a * S1x4096.size a ≤ (i a).val
      ∧ (i a).val < win0_2.index t a * S1x4096.size a + S1x4096.size a := by
  show i ∈ ((View.whole main_v7).slice (win0_2.rect t)).set ↔ _
  rw [View.set_slice_whole, Rect.mem_set_unit]
  exact Iff.rfl

/-- Every column is in the block of the grid point that is its quotient by 4096. -/
theorem cover (i : S1x2097152.Idx) : ∃ t : Fin cfg0.N, (cfg0.win 2).flush t = true ∧ i ∈ ((cfg0.win 2).blk t).view.set := by
  have hN : cfg0.N = 512 := Gen.N_0
  have h0 : (i 0).val < 1 := (i 0).isLt
  have h1 : (i 1).val < 2097152 := (i 1).isLt
  obtain ⟨t, ht⟩ : ∃ t : Fin cfg0.N, t.val = (i 1).val / 4096 := ⟨⟨(i 1).val / 4096, by omega⟩, rfl⟩
  obtain ⟨-, -, -, -, e4, e5⟩ := idx_facts t
  refine ⟨t, Gen.flush0_2 t, ?_⟩
  rw [mem_blk]
  intro a
  match a with
  | ⟨0, _⟩ =>
    show win0_2.index t (0 : Fin 2) * 1 ≤ (i 0).val ∧ (i 0).val < win0_2.index t (0 : Fin 2) * 1 + 1
    omega
  | ⟨1, _⟩ =>
    show win0_2.index t (1 : Fin 2) * 4096 ≤ (i 1).val ∧ (i 1).val < win0_2.index t (1 : Fin 2) * 4096 + 4096
    omega

/-- The row after the launch. -/
theorem final (c : Dev nD) : (Gen.dats m 0 c).arrAt 2 cfg0.N
    = refArr (m ((c : Thread nD τ).loc main_arg1)) (m ((c : Thread nD τ).loc main_arg0)) :=
  (Gen.dats m 0 c).arrAt_eq_of_cover 2 _ (fun t _ => flushed_eq m c t) cover

/-- The program's result: the row re-laid as a column. -/
def result (p : FVec Ideal S65x64 .f32) (x : FVec Ideal S2097152x4 .f32) : S2097152x1.Idx → EReal :=
  shapeCast S2097152x1 (shapeCast S2097152 (refArr p x) Facts₀.shapeCasts_S1x2097152_S2097152) Facts₀.shapeCasts_S2097152_S2097152x1

theorem tail_eq (c : Dev nD) :
    Pipeline.afterTail₀ cfgs (Gen.dats m) 0 (Gen.V0 m) [Gen.hostOps1] c main_v9
      = result (m ((c : Thread nD τ).loc main_arg1)) (m ((c : Thread nD τ).loc main_arg0)) := by
  unfold Pipeline.afterTail₀
  show StableHlo.after Gen.hostOps1 _ (Proc.devRef .tc main_v9) = _
  after_results
  have hw : Pipeline.withArrays (cfgs 0).spec c (Gen.V0 m c) (fun w => (Gen.dats m 0 c).arrAt w (cfgs 0).N) (Proc.devRef .tc main_v7)
      = refArr (m ((c : Thread nD τ).loc main_arg1)) (m ((c : Thread nD τ).loc main_arg0)) :=
    (Pipeline.withArrays_arr spec0 Gen.launch0.win.arr_inj c _ _ 2).trans (final m c)
  rw [hw]
  rfl

/-- The reference program runs, ends with its result at `result` of the arguments, and leaves the arguments unchanged. -/
theorem run : θ_run defs (onTc (τ := τ) (main (F := Ideal))) ⟨m, fun _ => 0, ρ⟩ fun r => ∀ c : Dev nD,
      r.2.mem ((c.tc : Thread nD τ).loc main_v9)
        = result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 (by decide) (by decide))).trans (tail_eq m c),
      ((h c).2 main_arg0 (Pipeline.mem_restRefs_of main_arg0 (by decide) (by decide))).trans (Gen.W_main_arg0 m (Gen.dats m) c),
      ((h c).1 1).trans (((Gen.dats m 0 c).arrAt_in 1 rfl _).trans ((Gen.A_eq m c 1).trans (Gen.V_main_arg1 m c)))⟩)
    (Gen.run_main m ρ)

end Cert.Critic.ReferenceValue

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.ReferenceBridge.lean ====
/-
  THE REFERENCE'S ROW IS THE CRITIC'S VALUE.

  At column n the reference kernel's row holds the read-out of 64 rectified eight-term products with column n of the
  padded table, (x(n, 0), …, x(n, 3), 1, 0, 0, 0), plus P(0, 8); for real inputs that is the critic's value at input n.
-/
import proofs.«114560_g2000104039907715_pallasbulk_1158_2_alg».proof.Proof.ReferenceValue
import proofs.«114560_g2000104039907715_pallasbulk_1158_2_alg».proof.Proof.Spec
import proofs.«114560_g2000104039907715_pallasbulk_1158_2_alg».proof.Proof.Result
import proofs.«114560_g2000104039907715_pallasbulk_1158_2_alg».proof.Proof.LibColCast
import Idealize.ShloMosaic.Lib.ValueLayout
import Mathlib.Algebra.BigOperators.Fin

noncomputable section

open scoped BigOperators

namespace Cert.Critic.ReferenceBridge

open Idealize.ShloMosaic Idealize.ShloMosaic.ValueIdx
open Cert.ReferenceIdeal Cert.Critic Cert.Critic.ReferenceOperands Cert.Critic.ReferenceValue Cert.Lib

/-- The word of 1.0 denotes one. -/
theorem ofBits_one : Ideal.ofBits .f32 0x3F800000#32 = (1 : EReal) := by
  simp [Ideal.ofBits, Ideal.ieee]
  first
    | (rw [← EReal.coe_mul]; norm_num)
    | (norm_cast; norm_num)
    | (have h : (8388608 : ℝ) * ((2 : ℝ) ^ 23)⁻¹ = 1 := by norm_num
       exact_mod_cast h)

/-- The reference kernel's row at column n is the critic's value at input n, for real parameters and inputs. -/
theorem refAt_eq (p : FVec Ideal S65x64 .f32) (x : FVec Ideal S2097152x4 .f32) (hp : ∀ i, IsReal (p i)) (hx : ∀ i, IsReal (x i))
    (n : Fin 2097152) : refAt p x n = gAt p x n := by
  unfold gAt
  choose P hP using fun (a : Fin 65) (c : Fin 64) => hp (ix2 a c)
  choose X hX using fun (f : Fin 4) => hx (ix2 n f)
  have hPt : (fun a c => (p (ix2 a c)).toReal) = P := by
    funext a c
    rw [hP]
    exact EReal.toReal_coe _
  have hXt : (fun f => (x (ix2 n f)).toReal) = X := by
    funext f
    rw [hX]
    exact EReal.toReal_coe _
  rw [hPt, hXt]
  unfold refAt
  have t0 : xt x (ix2 (0 : Fin 8) n) = x (ix2 n (0 : Fin 4)) := xt_feature x 0 n
  have t1 : xt x (ix2 (1 : Fin 8) n) = x (ix2 n (1 : Fin 4)) := xt_feature x 1 n
  have t2 : xt x (ix2 (2 : Fin 8) n) = x (ix2 n (2 : Fin 4)) := xt_feature x 2 n
  have t3 : xt x (ix2 (3 : Fin 8) n) = x (ix2 n (3 : Fin 4)) := xt_feature x 3 n
  have t4 : xt x (ix2 (4 : Fin 8) n) = Ideal.ofBits .f32 0x3F800000#32 := xt_one x n
  have t5 : xt x (ix2 (5 : Fin 8) n) = Ideal.ofBits .f32 0x00000000#32 := xt_zero x 5 (by decide) n
  have t6 : xt x (ix2 (6 : Fin 8) n) = Ideal.ofBits .f32 0x00000000#32 := xt_zero x 6 (by decide) n
  have t7 : xt x (ix2 (7 : Fin 8) n) = Ideal.ofBits .f32 0x00000000#32 := xt_zero x 7 (by decide) n
  simp only [Fin.sum_univ_eight, t0, t1, t2, t3, t4, t5, t6, t7, hP, hX, Ideal.ofBits_zero_f32, ofBits_one]
  exact padded_value P X

/-- The reference program's result is the column of values, for real parameters and inputs. -/
theorem result_eq (p : FVec Ideal S65x64 .f32) (x : FVec Ideal S2097152x4 .f32) (hp : ∀ i, IsReal (p i)) (hx : ∀ i, IsReal (x i)) :
    result p x = G p x := by
  funext i
  obtain ⟨n, u, rfl⟩ : ∃ (n : Fin 2097152) (u : Fin 1), i = ix2 n u := ⟨i 0, i 1, eq_ix2 i⟩
  unfold result
  refine (shapeCast_a_a1_apply _ _ n u).trans ?_
  refine (shapeCast_1a_a_apply _ _ n).trans ?_
  exact refAt_eq p x hp hx n

end Cert.Critic.ReferenceBridge

end
-- ==== Proof.Finite.lean ====
/-
  FINITE INPUTS ARE REAL NUMBERS.

  The precondition says that every entry of both inputs has absolute value below +∞. On the extended reals that means
  the entry is neither +∞ nor −∞, so it is (the image of) a real number.
-/
import proofs.«114560_g2000104039907715_pallasbulk_1158_2_alg».proof.Proof.Gen.Pre_finite_inputs
import proofs.«114560_g2000104039907715_pallasbulk_1158_2_alg».proof.Proof.LibGcnAlgebra
import Idealize.ShloMosaic.PureOps.Ideal
import Idealize.ShloMosaic.PureOps.Ideal.Laws
import Idealize.ShloMosaic.Lib.ValueIdx
import Idealize.ShloMosaic.Lib.ReduceAll
import Idealize.ShloMosaic.Lib.Affine
import Idealize.ShloMosaic.Lib.IdealHost

noncomputable section

namespace Cert.Critic.Finite

open Idealize.ShloMosaic Idealize.ShloMosaic.ValueIdx Cert.Lib

/-- The +∞ word denotes +∞. -/
theorem ofBits_inf : Ideal.ofBits .f32 0x7F800000#32 = (⊤ : EReal) := by simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [ofBits_inf] at h
  have hlt : max x (-x) < ⊤ := by
    by_contra hn
    have : Ideal.cmp .olt (max x (-x)) ⊤ = 0#1 := by
      unfold Ideal.cmp
      simp [hn]
    rw [this] at h
    exact absurd h (by decide)
  induction x using EReal.rec with
  | bot => exact absurd hlt (by simp)
  | coe r => exact ⟨r, rfl⟩
  | top => exact absurd hlt (by simp)

instance : Subsingleton Cert.Pre_finite_inputs.S_.Idx := ⟨fun a b => funext fun d => d.elim0⟩

/-- Under the precondition every entry of both inputs is a real number. -/
theorem isReal_of_pre (a0 : FVec Ideal Cert.Pre_finite_inputs.S2097152x4 .f32) (a1 : FVec Ideal Cert.Pre_finite_inputs.S65x64 .f32)
    (h : Cert.Pre_finite_inputs.fn (F := Ideal) a0 a1 = fun _ => 1#1) : (∀ i, IsReal (a0 i)) ∧ (∀ i, IsReal (a1 i)) := by
  have h0 := congrFun h ix0
  dsimp only [Cert.Pre_finite_inputs.fn] at h0
  obtain ⟨hx, hp⟩ := IntOp.andi_eq_one.mp h0
  constructor
  · intro i
    have e := Host.reduce_andi_all _ _ _ _ ix0 hx i
    exact isReal_of_abs_lt (a0 i) e
  · intro i
    have e := Host.reduce_andi_all _ _ _ _ ix0 hp i
    exact isReal_of_abs_lt (a1 i) e

end Cert.Critic.Finite

end
-- ==== Proof.lean ====
/-
  TWO EVALUATIONS OF A TWO-LAYER CRITIC AGREE ON THE EXTENDED REALS FOR FINITE INPUTS.

  The critic maps an input x(n, 0..3) to

      v(n) = Σ_{j < 64} max(Σ_{f < 4} P(j, f) · x(n, f) + P(j, 4), 0) · P(64, j) + P(0, 8),

  with all its parameters packed in one 65 × 64 matrix P.

  The reference pads and transposes the input to 8 rows (the features, a row of ones that carries the hidden bias, three
  rows of zeros), multiplies the 64 × 8 corner of P by it, rectifies, multiplies by the read-out row and adds the
  read-out bias; its kernel writes one lane-dense row, 4096 columns per grid point, which is re-laid as a column.

  The kernel views 32 consecutive inputs as one 128-wide row and multiplies by a block-diagonal expansion of the first
  layer (row 32·j + b, column 4·b' + f holds P(j, f) when b = b' and zero otherwise), adds the bias, rectifies, scales by
  the read-out weight and sums over the hidden units; the read-out bias rides along as a 65th unit with zero weights,
  bias one and read-out weight P(0, 8). Its kernel writes a 32 × 65536 array, 2048 columns per grid point, which is
  transposed and re-laid as a column.

  For real (finite) parameters and inputs every product with a zero of the expansion or of the padding vanishes, the
  65th unit contributes max(0 + 1, 0) · P(0, 8) = P(0, 8), and both programs end with the column v. The law used is
  that of the real numbers (distributing a product over zeros and reordering finite sums), which is why the
  precondition is used: on infinite entries 0 · ∞ terms would not cancel in the same way in both arrangements.

  The three frames are the generated ones; the idealization rewrote nothing, so there is nothing to preserve.
-/
import proofs.«114560_g2000104039907715_pallasbulk_1158_2_alg».proof.Defs
import proofs.«114560_g2000104039907715_pallasbulk_1158_2_alg».proof.Proof.Gen.Kernel
import proofs.«114560_g2000104039907715_pallasbulk_1158_2_alg».proof.Proof.Gen.Kernel.Skeleton
import proofs.«114560_g2000104039907715_pallasbulk_1158_2_alg».proof.Proof.Gen.Kernel.Launch
import proofs.«114560_g2000104039907715_pallasbulk_1158_2_alg».proof.Proof.Gen.Kernel.Points
import proofs.«114560_g2000104039907715_pallasbulk_1158_2_alg».proof.Proof.Gen.Kernel.Frame
import proofs.«114560_g2000104039907715_pallasbulk_1158_2_alg».proof.Proof.Gen.KernelIdeal
import proofs.«114560_g2000104039907715_pallasbulk_1158_2_alg».proof.Proof.Gen.KernelIdeal.Skeleton
import proofs.«114560_g2000104039907715_pallasbulk_1158_2_alg».proof.Proof.Gen.KernelIdeal.Launch
import proofs.«114560_g2000104039907715_pallasbulk_1158_2_alg».proof.Proof.Gen.KernelIdeal.Points
import proofs.«114560_g2000104039907715_pallasbulk_1158_2_alg».proof.Proof.Gen.KernelIdeal.Frame
import proofs.«114560_g2000104039907715_pallasbulk_1158_2_alg».proof.Proof.Gen.ReferenceIdeal
import proofs.«114560_g2000104039907715_pallasbulk_1158_2_alg».proof.Proof.Gen.ReferenceIdeal.Skeleton
import proofs.«114560_g2000104039907715_pallasbulk_1158_2_alg».proof.Proof.Gen.ReferenceIdeal.Launch
import proofs.«114560_g2000104039907715_pallasbulk_1158_2_alg».proof.Proof.Gen.ReferenceIdeal.Points
import proofs.«114560_g2000104039907715_pallasbulk_1158_2_alg».proof.Proof.Gen.ReferenceIdeal.Frame
import proofs.«114560_g2000104039907715_pallasbulk_1158_2_alg».proof.Proof.Gen.Pre_finite_inputs
import proofs.«114560_g2000104039907715_pallasbulk_1158_2_alg».proof.Proof.KernelBridge
import proofs.«114560_g2000104039907715_pallasbulk_1158_2_alg».proof.Proof.ReferenceBridge
import proofs.«114560_g2000104039907715_pallasbulk_1158_2_alg».proof.Proof.Finite
import Idealize.ShloMosaic.Adequacy
import Idealize.ShloMosaic.Init

noncomputable section

namespace Cert.Proof

open Idealize.ShloMosaic Idealize.SL.Sem

/-- The three programs run and leave their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both idealized programs end with the column of the critic's values of the (real) arguments. -/
theorem algebraic : Cert.algebraic_KernelIdeal_ReferenceIdeal := by
  intro m ρ m' ρ' hpre hagree
  refine ⟨fun c => Cert.Critic.G (m ((c.tc : Thread Cert.KernelIdeal.nD Cert.KernelIdeal.τ).loc Cert.KernelIdeal.main_arg1))
    (m ((c.tc : Thread Cert.KernelIdeal.nD Cert.KernelIdeal.τ).loc Cert.KernelIdeal.main_arg0)), ?_, ?_⟩
  · refine (θ_run Cert.KernelIdeal.defs _ _).mono (fun r h c => ?_) (Cert.Critic.KernelValue.run m ρ)
    obtain ⟨hx, hp⟩ := Cert.Critic.Finite.isReal_of_pre _ _ (hpre c)
    exact ⟨(h c).1.trans (Cert.Critic.KernelBridge.result_eq _ _ hp hx), (h c).2.1, (h c).2.2⟩
  · refine (θ_run Cert.ReferenceIdeal.defs _ _).mono (fun r h c => ?_) (Cert.Critic.ReferenceValue.run m' ρ')
    obtain ⟨hx, hp⟩ := Cert.Critic.Finite.isReal_of_pre _ _ (hpre c)
    refine ⟨(h c).1.trans ?_, (h c).2.1, (h c).2.2⟩
    rw [(hagree c).1, (hagree c).2]
    exact Cert.Critic.ReferenceBridge.result_eq _ _ hp hx

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
